-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S10000x128 : Shape := ⟨2, ![10000, 128]⟩
abbrev S850000x128 : Shape := ⟨2, ![850000, 128]⟩
abbrev S1x128 : Shape := ⟨2, ![1, 128]⟩
abbrev S50000x64 : Shape := ⟨2, ![50000, 64]⟩
abbrev S10000x64 : Shape := ⟨2, ![10000, 64]⟩
abbrev S850000x64 : Shape := ⟨2, ![850000, 64]⟩
abbrev S1x64 : Shape := ⟨2, ![1, 64]⟩

abbrev nBuf : Space → Nat
  | .hbm => 98
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S850000, .i32⟩
  | .hbm, ⟨24, _⟩ => ⟨S850000, .i1⟩
  | .hbm, ⟨25, _⟩ => ⟨S_, .i32⟩
  | .hbm, ⟨26, _⟩ => ⟨S850000, .i32⟩
  | .hbm, ⟨27, _⟩ => ⟨S850000, .i32⟩
  | .hbm, ⟨28, _⟩ => ⟨S850000, .i32⟩
  | .hbm, ⟨29, _⟩ => ⟨S850000x1, .i32⟩
  | .hbm, ⟨30, _⟩ => ⟨S850000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S50000x128, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000x128, .f32⟩
  | .hbm, ⟨51, _⟩ => ⟨S850000x1, .f32⟩
  | .hbm, ⟨52, _⟩ => ⟨S850000x128, .f32⟩
  | .hbm, ⟨53, _⟩ => ⟨S850000x128, .f32⟩
  | .hbm, ⟨54, _⟩ => ⟨S_, .f32⟩
  | .hbm, ⟨55, _⟩ => ⟨S50000x128, .f32⟩
  | .hbm, ⟨56, _⟩ => ⟨S850000x1, .i32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S_, .i32⟩
  | .hbm, ⟨62, _⟩ => ⟨S850000, .i32⟩
  | .hbm, ⟨63, _⟩ => ⟨S850000, .i1⟩
  | .hbm, ⟨64, _⟩ => ⟨S_, .i32⟩
  | .hbm, ⟨65, _⟩ => ⟨S850000, .i32⟩
  | .hbm, ⟨66, _⟩ => ⟨S850000, .i32⟩
  | .hbm, ⟨67, _⟩ => ⟨S850000, .i32⟩
  | .hbm, ⟨68, _⟩ => ⟨S850000x1, .i32⟩
  | .hbm, ⟨69, _⟩ => ⟨S850000x128, .f32⟩
  | .hbm, ⟨70, _⟩ => ⟨S850000x1, .f32⟩
  | .hbm, ⟨71, _⟩ => ⟨S850000x128, .f32⟩
  | .hbm, ⟨72, _⟩ => ⟨S850000x128, .f32⟩
  | .hbm, ⟨73, _⟩ => ⟨S_, .f32⟩
  | .hbm, ⟨74, _⟩ => ⟨S50000x128, .f32⟩
  | .hbm, ⟨75, _⟩ => ⟨S850000x1, .i32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x64, .f32⟩
  | .hbm, ⟨80, _⟩ => ⟨S_, .i32⟩
  | .hbm, ⟨81, _⟩ => ⟨S850000, .i32⟩
  | .hbm, ⟨82, _⟩ => ⟨S850000, .i1⟩
  | .hbm, ⟨83, _⟩ => ⟨S_, .i32⟩
  | .hbm, ⟨84, _⟩ => ⟨S850000, .i32⟩
  | .hbm, ⟨85, _⟩ => ⟨S850000, .i32⟩
  | .hbm, ⟨86, _⟩ => ⟨S850000, .i32⟩
  | .hbm, ⟨87, _⟩ => ⟨S850000x1, .i32⟩
  | .hbm, ⟨88, _⟩ => ⟨S850000x64, .f32⟩
  | .hbm, ⟨89, _⟩ => ⟨S850000x1, .f32⟩
  | .hbm, ⟨90, _⟩ => ⟨S850000x64, .f32⟩
  | .hbm, ⟨91, _⟩ => ⟨S850000x64, .f32⟩
  | .hbm, ⟨92, _⟩ => ⟨S_, .f32⟩
  | .hbm, ⟨93, _⟩ => ⟨S50000x64, .f32⟩
  | .hbm, ⟨94, _⟩ => ⟨S850000x1, .i32⟩
  | .hbm, ⟨95, _⟩ => ⟨S50000x64, .f32⟩
  | .hbm, ⟨96, _⟩ => ⟨S1x64, .f32⟩
  | .hbm, ⟨97, _⟩ => ⟨S50000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_7 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_10 : Ref sig .tc := ⟨.hbm, 80, rfl⟩
abbrev main_v60 : Ref sig .tc := ⟨.hbm, 81, rfl⟩
abbrev main_v61 : Ref sig .tc := ⟨.hbm, 82, rfl⟩
abbrev main_c_11 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_12 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x128_S10000x128_1_0_0_1_n_n_wf : DotDims.WF S10000x128 S128x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S10000x128_S128x64_S10000x64_1_0_0_1_n_n_wf : DotDims.WF S10000x128 S128x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S50000x128.size a
  hwx2_2 : ∀ i : grid2.Coords, EltTy.bits .f32 = 32 ∨ (Rect.block (s := S50000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S50000x128.size a
  hwx3_2 : ∀ i : grid3.Coords, EltTy.bits .f32 = 32 ∨ (Rect.block (s := S50000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S50000x128.size a
  hwx4_0 : ∀ i : grid4.Coords, EltTy.bits .f32 = 32 ∨ (Rect.block (s := S50000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S50000x64.size a
  hwx4_2 : ∀ i : grid4.Coords, EltTy.bits .f32 = 32 ∨ (Rect.block (s := S50000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S50000x64.size a
  hwx5_0 : ∀ i : grid5.Coords, EltTy.bits .f32 = 32 ∨ (Rect.block (s := S50000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S50000x64.size a
  hwx5_2 : ∀ i : grid5.Coords, EltTy.bits .f32 = 32 ∨ (Rect.block (s := S50000x64) S10000x64.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 165
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S1x800000, .i32⟩
  | 9 => ⟨S800000, .i32⟩
  | 10 => ⟨S1x800000, .i32⟩
  | 11 => ⟨S800000, .i32⟩
  | 12 => ⟨S50000x128, .f32⟩
  | 13 => ⟨S50000, .i32⟩
  | 14 => ⟨S850000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S50000, .f32⟩
  | 23 => ⟨S_, .i32⟩
  | 24 => ⟨S850000, .i32⟩
  | 25 => ⟨S850000, .i1⟩
  | 26 => ⟨S_, .i32⟩
  | 27 => ⟨S850000, .i32⟩
  | 28 => ⟨S850000, .i32⟩
  | 29 => ⟨S850000, .i32⟩
  | 30 => ⟨S850000x1, .i32⟩
  | 31 => ⟨S850000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000x128, .f32⟩
  | 51 => ⟨S850000x1, .f32⟩
  | 52 => ⟨S850000x128, .f32⟩
  | 53 => ⟨S850000x128, .f32⟩
  | 54 => ⟨S_, .f32⟩
  | 55 => ⟨S50000x128, .f32⟩
  | 56 => ⟨S850000x1, .i32⟩
  | 57 => ⟨S50000x128, .f32⟩
  | 58 => ⟨S1x128, .f32⟩
  | 59 => ⟨S50000x128, .f32⟩
  | 60 => ⟨S50000x128, .f32⟩
  | 61 => ⟨S_, .f32⟩
  | 62 => ⟨S50000x128, .f32⟩
  | 63 => ⟨S50000x128, .f32⟩
  | 64 => ⟨S50000x128, .f32⟩
  | 65 => ⟨S50000, .i32⟩
  | 66 => ⟨S850000, .i32⟩
  | 67 => ⟨S850000, .i32⟩
  | 68 => ⟨S_, .f32⟩
  | 69 => ⟨S850000, .f32⟩
  | 70 => ⟨S_, .f32⟩
  | 71 => ⟨S50000, .f32⟩
  | 72 => ⟨S850000x1, .i32⟩
  | 73 => ⟨S50000, .f32⟩
  | 74 => ⟨S50000, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000, .f32⟩
  | 93 => ⟨S850000, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000x128, .f32⟩
  | 103 => ⟨S850000x1, .f32⟩
  | 104 => ⟨S850000x128, .f32⟩
  | 105 => ⟨S850000x128, .f32⟩
  | 106 => ⟨S_, .f32⟩
  | 107 => ⟨S50000x128, .f32⟩
  | 108 => ⟨S850000x1, .i32⟩
  | 109 => ⟨S50000x128, .f32⟩
  | 110 => ⟨S1x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S50000x64, .f32⟩
  | 117 => ⟨S50000, .i32⟩
  | 118 => ⟨S850000, .i32⟩
  | 119 => ⟨S850000, .i32⟩
  | 120 => ⟨S_, .f32⟩
  | 121 => ⟨S850000, .f32⟩
  | 122 => ⟨S_, .f32⟩
  | 123 => ⟨S50000, .f32⟩
  | 124 => ⟨S850000x1, .i32⟩
  | 125 => ⟨S50000, .f32⟩
  | 126 => ⟨S50000, .f32⟩
  | 127 => ⟨S_, .i32⟩
  | _ => ⟨S50000x128, .f32⟩

abbrev hbmTy0_1 (i : Nat) : BufTy := match i % 128 with
  | 0 => ⟨S850000, .i32⟩
  | 1 => ⟨S850000, .i1⟩
  | 2 => ⟨S_, .i32⟩
  | 3 => ⟨S850000, .i32⟩
  | 4 => ⟨S850000, .i32⟩
  | 5 => ⟨S850000, .i32⟩
  | 6 => ⟨S850000x1, .i32⟩
  | 7 => ⟨S850000, .f32⟩
  | 8 => ⟨S_, .i32⟩
  | 9 => ⟨S850000, .i32⟩
  | 10 => ⟨S850000, .i1⟩
  | 11 => ⟨S_, .i32⟩
  | 12 => ⟨S850000, .i32⟩
  | 13 => ⟨S850000, .i32⟩
  | 14 => ⟨S850000, .i32⟩
  | 15 => ⟨S850000x1, .i32⟩
  | 16 => ⟨S850000, .f32⟩
  | 17 => ⟨S850000, .f32⟩
  | 18 => ⟨S_, .i32⟩
  | 19 => ⟨S850000, .i32⟩
  | 20 => ⟨S850000, .i1⟩
  | 21 => ⟨S_, .i32⟩
  | 22 => ⟨S850000, .i32⟩
  | 23 => ⟨S850000, .i32⟩
  | 24 => ⟨S850000, .i32⟩
  | 25 => ⟨S850000x1, .i32⟩
  | 26 => ⟨S850000x64, .f32⟩
  | 27 => ⟨S850000x1, .f32⟩
  | 28 => ⟨S850000x64, .f32⟩
  | 29 => ⟨S850000x64, .f32⟩
  | 30 => ⟨S_, .f32⟩
  | 31 => ⟨S50000x64, .f32⟩
  | 32 => ⟨S850000x1, .i32⟩
  | 33 => ⟨S50000x64, .f32⟩
  | 34 => ⟨S1x64, .f32⟩
  | 35 => ⟨S50000x64, .f32⟩
  | 36 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_9 : Ref sig .tc := ⟨.hbm, 75, rfl⟩
abbrev main_v54 : Ref sig .tc := ⟨.hbm, 76, rfl⟩
abbrev main_v55 : Ref sig .tc := ⟨.hbm, 77, rfl⟩
abbrev main_c_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_11 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_13 : Ref sig .tc := ⟨.hbm, 94, rfl⟩
abbrev main_v69 : Ref sig .tc := ⟨.hbm, 95, rfl⟩
abbrev main_v70 : Ref sig .tc := ⟨.hbm, 96, rfl⟩
abbrev main_c_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_15 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_call1_cst : Ref sig .tc := ⟨.hbm, 113, rfl⟩
abbrev main_call1_v0 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_16 : Ref sig .tc := ⟨.hbm, 120, rfl⟩
abbrev main_v90 : Ref sig .tc := ⟨.hbm, 121, rfl⟩
abbrev main_cst_17 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_c_18 : Ref sig .tc := ⟨.hbm, 127, rfl⟩
abbrev main_v95 : Ref sig .tc := ⟨.hbm, 128, rfl⟩
abbrev main_v96 : Ref sig .tc := ⟨.hbm, 129, rfl⟩
abbrev main_c_19 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_c_20 : Ref sig .tc := ⟨.hbm, 136, rfl⟩
abbrev main_v102 : Ref sig .tc := ⟨.hbm, 137, rfl⟩
abbrev main_v103 : Ref sig .tc := ⟨.hbm, 138, rfl⟩
abbrev main_c_21 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_c_22 : Ref sig .tc := ⟨.hbm, 146, rfl⟩
abbrev main_v110 : Ref sig .tc := ⟨.hbm, 147, rfl⟩
abbrev main_v111 : Ref sig .tc := ⟨.hbm, 148, rfl⟩
abbrev main_c_23 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_cst_24 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KRun.lean ====
/-
  The idealized kernel's run with its result named. @main is ten segments — four stretches of host operations and six
  kernel regions — and the contents of the TensorCore's buffers at each segment boundary are a fold from the launch
  memory: a stretch applies its operations, a region replaces its arrays by what its grid points write back. Every
  weakly fair execution terminates with every unscoped buffer at the last boundary's contents; here that is read at
  the result buffer as well as at the arguments, so the run ends with the result at the fold's value there.
-/
import proofs.«124595_j1632087573166_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_named : θ_run defs (onTc (τ := τ) (main (F := F))) ⟨m, fun _ => 0, ρ⟩ (fun r => ∀ c : Dev nD,
      r.2.mem ((c.tc : Thread nD τ).loc main_v74) = W10 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v74 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Named

end
-- ==== Proof.Spec.lean ====
/-
  A three-layer graph convolution as whole-array functions of its inputs.

  Nodes are `0 … 49999`; the edge list `e` holds 800000 (source, destination) pairs and every node gets a self-loop, so
  `src e` and `dst e` are the 850000 sources and destinations. With `deg v` the number of edges into `v` and
  `dinv = deg^(-1/2)`, the weight of edge `k` is `normOf e k = dinv (src k) · dinv (dst k)` (a negative node number is
  read from the end: `wrap`). One layer sends a node-feature array `X` to the product `X · W` (`mm`, `mm64`), gathers
  the rows of that product at the edges' sources, scales row `k` by the weight of edge `k`, and adds it into the row of
  the edge's destination (`agg`, `agg64`); then the bias is added to every row (`bias`, `bias64`) and, in the first
  two layers, the result is clamped below at zero (`relu`). `out` is the three layers composed. Everything is stated
  with the host operations themselves; a proof reads an operation at an index only where it needs to.
-/
import proofs.«124595_j1632087573166_1_alg».proof.ReferenceIdeal
import Idealize.ShloMosaic.Lib.ValueIdx
import Idealize.ShloMosaic.Lib.Pipeline.Value

noncomputable section

namespace Cert.Gcn

open Idealize.ShloMosaic Cert.ReferenceIdeal Cert.ReferenceIdeal.Facts₀

variable {F : FTy → Type} [FloatOps F] [Cert.ReferenceIdeal.Facts₀]

/-- The edges' sources, self-loops appended. -/
def src (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The edges' destinations, self-loops appended. -/
def dst (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A node number read from the end when negative: `z + 50000` where `z < 0`, else `z`. -/
def wrap (z : (⟨S850000, .i32⟩ : BufTy).Contents (Elt F)) : (⟨S850000, .i32⟩ : BufTy).Contents (Elt F) :=
  select (cmpi .slt z (broadcastInDim S850000 ![] bcast_S_S850000 (constantI S_ 32 0#32))) (addi z (broadcastInDim S850000 ![] bcast_S_S850000 (constantI S_ 32 50000#32))) z

/-- `deg^(-1/2)`: the number of edges into each node, as a float, under the reciprocal square root. -/
def dinv (e : (⟨S2x800000, .i32⟩ : BufTy).Contents (Elt F)) : (⟨S50000, .f32⟩ : BufTy).Contents (Elt F) :=
  Host.rsqrt (Host.scatterAdd scatter_S50000_S850000x1_S850000_n_0_0_1 (broadcastInDim S50000 ![] bcast_S_S50000 (constant S_ .f32 0x00000000#32)) (broadcastInDim S850000x1 ![0] bcast_S850000_S850000x1_0 (dst e)) (broadcastInDim S850000 ![] bcast_S_S850000 (constant S_ .f32 0x3F800000#32)))

/-- The weight of each edge: `dinv` at its source times `dinv` at its destination. -/
def normOf (e : (⟨S2x800000, .i32⟩ : BufTy).Contents (Elt F)) : (⟨S850000, .f32⟩ : BufTy).Contents (Elt F) :=
  mulf (Host.gather gather_S50000_S850000x1_S850000_n_0_n_n_0_1_1 (dinv e) (broadcastInDim S850000x1 ![0] bcast_S850000_S850000x1_0 (wrap (src e)))) (Host.gather gather_S50000_S850000x1_S850000_n_0_n_n_0_1_1 (dinv e) (broadcastInDim S850000x1 ![0] bcast_S850000_S850000x1_0 (wrap (dst e))))

/-- The product of a 50000×128 array with a 128×128 one. -/
def mm (X : (⟨S50000x128, .f32⟩ : BufTy).Contents (Elt F)) (W : (⟨S128x128, .f32⟩ : BufTy).Contents (Elt F)) : (⟨S50000x128, .f32⟩ : BufTy).Contents (Elt F) :=
  Host.dotGeneral dot_S50000x128_S128x128_S50000x128_1_0_0_1_n_n none X W

/-- The product of a 50000×128 array with a 128×64 one. -/
def mm64 (X : (⟨S50000x128, .f32⟩ : BufTy).Contents (Elt F)) (W : (⟨S128x64, .f32⟩ : BufTy).Contents (Elt F)) : (⟨S50000x64, .f32⟩ : BufTy).Contents (Elt F) :=
  Host.dotGeneral dot_S50000x128_S128x64_S50000x64_1_0_0_1_n_n none X W

/-- The weighted sum over each node's incoming edges of the rows of `H` at the edges' sources (128 columns). -/
def agg (e : (⟨S2x800000, .i32⟩ : BufTy).Contents (Elt F)) (H : (⟨S50000x128, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 (dst e)) (mulf (Host.gather gather_S50000x128_S850000x1_S850000x128_1_0_n_n_0_1_1128 H (broadcastInDim S850000x1 ![0] bcast_S850000_S850000x1_0 (wrap (src e)))) (broadcastInDim S850000x128 ![0, 1] bcast_S850000x1_S850000x128_0_1 (broadcastInDim S850000x1 ![0] bcast_S850000_S850000x1_0 (normOf e))))

/-- The same over 64 columns. -/
def agg64 (e : (⟨S2x800000, .i32⟩ : BufTy).Contents (Elt F)) (H : (⟨S50000x64, .f32⟩ : BufTy).Contents (Elt F)) : (⟨S50000x64, .f32⟩ : BufTy).Contents (Elt F) :=
  Host.scatterAdd scatter_S50000x64_S850000x1_S850000x64_1_0_0_1 (broadcastInDim S50000x64 ![] bcast_S_S50000x64 (constant S_ .f32 0x00000000#32)) (broadcastInDim S850000x1 ![0] bcast_S850000_S850000x1_0 (dst e)) (mulf (Host.gather gather_S50000x64_S850000x1_S850000x64_1_0_n_n_0_1_164 H (broadcastInDim S850000x1 ![0] bcast_S850000_S850000x1_0 (wrap (src e)))) (broadcastInDim S850000x64 ![0, 1] bcast_S850000x1_S850000x64_0_1 (broadcastInDim S850000x1 ![0] bcast_S850000_S850000x1_0 (normOf e))))

/-- The bias `b` added to every row (128 columns). -/
def bias (A : (⟨S50000x128, .f32⟩ : BufTy).Contents (Elt F)) (b : (⟨S128, .f32⟩ : BufTy).Contents (Elt F)) : (⟨S50000x128, .f32⟩ : BufTy).Contents (Elt F) :=
  addf A (broadcastInDim S50000x128 ![0, 1] bcast_S1x128_S50000x128_0_1 (broadcastInDim S1x128 ![1] bcast_S128_S1x128_1 b))

/-- The bias `b` added to every row (64 columns). -/
def bias64 (A : (⟨S50000x64, .f32⟩ : BufTy).Contents (Elt F)) (b : (⟨S64, .f32⟩ : BufTy).Contents (Elt F)) : (⟨S50000x64, .f32⟩ : BufTy).Contents (Elt F) :=
  addf A (broadcastInDim S50000x64 ![0, 1] bcast_S1x64_S50000x64_0_1 (broadcastInDim S1x64 ![1] bcast_S64_S1x64_1 b))

/-- Every entry clamped below at zero. -/
def relu (A : (⟨S50000x128, .f32⟩ : BufTy).Contents (Elt F)) : (⟨S50000x128, .f32⟩ : BufTy).Contents (Elt F) :=
  maximumf A (broadcastInDim S50000x128 ![] bcast_S_S50000x128 (constant S_ .f32 0x00000000#32))

/-- A hidden layer: product, aggregation over the edges, bias, clamp. -/
def layer (e : (⟨S2x800000, .i32⟩ : BufTy).Contents (Elt F)) (X : (⟨S50000x128, .f32⟩ : BufTy).Contents (Elt F))
    (W : (⟨S128x128, .f32⟩ : BufTy).Contents (Elt F)) (b : (⟨S128, .f32⟩ : BufTy).Contents (Elt F)) : (⟨S50000x128, .f32⟩ : BufTy).Contents (Elt F) :=
  relu (bias (agg e (mm X W)) b)

/-- The network: two hidden layers, then a last layer of 64 columns with no clamp. -/
def out (x : (⟨S50000x128, .f32⟩ : BufTy).Contents (Elt F)) (e : (⟨S2x800000, .i32⟩ : BufTy).Contents (Elt F))
    (W1 : (⟨S128x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F))
    (W3 : (⟨S128x64, .f32⟩ : BufTy).Contents (Elt F)) (b3 : (⟨S64, .f32⟩ : BufTy).Contents (Elt F)) : (⟨S50000x64, .f32⟩ : BufTy).Contents (Elt F) :=
  bias64 (agg64 e (mm64 (layer e (layer e x W1 b1) W2 b2) W3)) b3

end Cert.Gcn

end
-- ==== Proof.LibWrittenRefs.lean ====
/-
  A straight line of host operations each of which writes exactly one buffer: when the buffers written, in order,
  are the references of a list `W`, a reference outside `W` is written by no operation of the line, and so keeps its
  contents across the line. The hypothesis is one equation between two lists (the operations' written sets against the
  singletons of `W`), which for a literal line holds by unfolding; membership in `W` is then decided over references alone.
-/
import Idealize.ShloMosaic.Lib.StableHlo.Run

namespace Idealize.ShloMosaic.StableHlo

variable {τ : Topo} {sig : RefSig} {Val : EltTy → Type}

/-- Every operation of a line whose written sets are, in order, the singletons of the references `W` writes only
    references of `W`. -/
theorem writes_sub_of_map_eq :
    ∀ (ops : List (HloOp τ sig Val)) (W : List (Ref sig .tc)),
      ops.map (fun op => op.writes) = W.map (fun r => ({Proc.devRef (τ := τ) .tc r} : Finset (DevRef τ sig))) →
      ∀ op ∈ ops, op.writes ⊆ (W.map (Proc.devRef (τ := τ) .tc)).toFinset
  | [], _, _ => fun _ hop => nomatch hop
  | _ :: _, [], h => nomatch h
  | o :: os, r :: W', h => by
    simp only [List.map_cons, List.cons.injEq] at h
    intro op hop
    rcases List.mem_cons.mp hop with rfl | hop
    · rw [h.1]
      intro b hb
      rw [Finset.mem_singleton] at hb
      subst hb
      exact List.mem_toFinset.mpr (List.mem_map.mpr ⟨r, List.mem_cons_self, rfl⟩)
    · refine (writes_sub_of_map_eq os W' h.2 op hop).trans fun b hb => ?_
      obtain ⟨y, hy, he⟩ := List.mem_map.mp (List.mem_toFinset.mp hb)
      exact List.mem_toFinset.mpr (List.mem_map.mpr ⟨y, List.mem_cons_of_mem _ hy, he⟩)

/-- No operation of such a line writes a reference outside `W`. -/
theorem not_mem_writes_of_map_eq {ops : List (HloOp τ sig Val)} {W : List (Ref sig .tc)}
    (h : ops.map (fun op => op.writes) = W.map (fun r => ({Proc.devRef (τ := τ) .tc r} : Finset (DevRef τ sig))))
    {r : Ref sig .tc} (hr : r ∉ W) {op : HloOp τ sig Val} (hop : op ∈ ops) : Proc.devRef (τ := τ) .tc r ∉ op.writes := fun hw => by
  obtain ⟨y, hy, he⟩ := List.mem_map.mp (List.mem_toFinset.mp (writes_sub_of_map_eq ops W h op hop hw))
  exact hr (Proc.devRef_injective _ he ▸ hy)

/-- A reference outside `W` holds after such a line what it held before it. -/
theorem after_of_map_writes_eq {ops : List (HloOp τ sig Val)} {W : List (Ref sig .tc)}
    (h : ops.map (fun op => op.writes) = W.map (fun r => ({Proc.devRef (τ := τ) .tc r} : Finset (DevRef τ sig))))
    (V : Valuation τ sig Val) {r : Ref sig .tc} (hr : r ∉ W) :
    after ops V (Proc.devRef .tc r) = V (Proc.devRef .tc r) :=
  after_of_forall_not_mem ops V fun _ hop => not_mem_writes_of_map_eq h hr hop

end Idealize.ShloMosaic.StableHlo
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibRowBlock.lean ====
/-
  A block of rows of a plain matrix product, on the extended reals.

  Let `A` be an `M×K` array and `W` a `K×N` array. If row `p` of a `B×K` array `x` is row `P` of `A`, and column `q` of
  a `K×N` array `w` is column `q` of `W`, then entry `(p, q)` of the product `x · w` accumulated on the vector unit from
  the zero array is entry `(P, q)` of the host's product `A · W`: each is `∑ k, A (P, k) * W (k, q)`, the same sum
  term by term, so no finiteness is asked of the entries and the operands' float formats do not matter. This is
  what a product tiled over its rows — each grid point multiplying its own rows by the whole right operand —
  needs to rejoin the one product of a reference.
-/
import proofs.«124595_j1632087573166_1_alg».proof.Proof.LibPlainDot

noncomputable section

open scoped BigOperators

namespace Cert.Lib.RowBlock

open Idealize.ShloMosaic Idealize.ShloMosaic.ValueIdx

variable {M K N B : ℕ} {φ₁ φ₂ ψ₁ ψ₂ : FTy}

/-- Entry `(p, q)` of a row block's product is entry `(P, q)` of the whole product. -/
theorem matmul_eq_dotGeneral (prec prec' : Option ContractPrecision) (sched : HostSchedule)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (P : Fin M) (p : Fin B) (q : Fin N)
    (hx : ∀ k : Fin K, (x (ix2 p k) : EReal) = A (ix2 P k)) (hw : ∀ k : Fin K, (w (ix2 k q) : EReal) = W (ix2 k q)) :
    FloatOps.matmul (DotDims.plain B K N) prec x w (constant ⟨2, ![B, N]⟩ .f32 0x00000000#32) (ix2 p q)
      = FloatOps.dotGeneral (DotDims.plain M K N) prec' sched A W (ix2 P q) := by
  rw [Cert.Lib.PlainDot.matmul_zero_apply, Cert.Lib.PlainDot.dotGeneral_apply]
  exact Finset.sum_congr rfl fun k _ => by rw [hx k, hw k]

end Cert.Lib.RowBlock

end
-- ==== Proof.Mm0.lean ====
/-
  Region 0 of the idealized kernel is a matrix product tiled over its rows: grid point `t` multiplies rows
  `10000·t … 10000·t + 9999` of the 50000×128 array it finds in its first window by the whole 128×128 weight array of
  its second window, into the zero accumulator, and writes the 10000×128 block back to the same rows of its output.
  On the extended reals entry `(p, q)` of a block is `∑ₖ X (10000·t + p, k) · W (k, q)`, which is entry
  `(10000·t + p, q)` of the one product `X · W` (a change of float format is the identity there); the five blocks
  tile the output, so after the region the output array is `X · W`.
-/
import proofs.«124595_j1632087573166_1_alg».proof.Proof.Gen.KernelIdeal.Frame
import proofs.«124595_j1632087573166_1_alg».proof.Proof.Spec
import proofs.«124595_j1632087573166_1_alg».proof.Proof.LibRowBlock
import Idealize.ShloMosaic.Lib.Pipeline.Value
import Idealize.ShloMosaic.Lib.ValueIdx

set_option maxRecDepth 16384

noncomputable section

namespace Cert.KernelIdeal.Mm0

open Cert.KernelIdeal Cert.KernelIdeal.Gen Idealize.ShloMosaic Idealize.ShloMosaic.TcCoe Idealize.SL.Sem
open Idealize.ShloMosaic.ValueIdx
open Idealize.ShloMosaic.Pipeline (Dat)

variable [Cert.ReferenceIdeal.Facts₀]

variable (V : (c : Dev nD) → (b : Ref sig .tc) → Buf (Elt Ideal) ((c : Thread nD τ).loc b))

theorem zero_offsets : (![0, 0] : Fin 2 → Nat) = fun _ => 0 := funext fun a => by fin_cases a <;> rfl

/-- Entry `(p, q)` of a point's product is entry `(P, q)` of the whole product, when row `p` of the block it loads is
    row `P` of the array and the weights it loads are the weight array. -/
theorem block_entry (x0 : Vec Ideal S10000x128 .f32) (x1 : Vec Ideal S128x128 .f32)
    (X : S50000x128.Idx → EReal) (W : S128x128.Idx → EReal) (P : Fin 50000) (p : Fin 10000) (q : Fin 128)
    (hx : ∀ k : Fin 128, x0 (ix2 p k) = X (ix2 P k)) (hw : ∀ k : Fin 128, x1 (ix2 k q) = W (ix2 k q)) :
    k0_pay1 (F := Ideal) x0 x1 (ix2 p q) = Cert.Gcn.mm (F := Ideal) X W (ix2 P q) := by
  unfold k0_pay1 Cert.Gcn.mm
  exact Cert.Lib.RowBlock.matmul_eq_dotGeneral none none .single X W _ _ P p q
    (fun k => hx k) (fun k => hw k)

/-- The printed index maps over the five grid points: the first window and the output move together down the
    rows, the weights stay. -/
theorem index_maps : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 4 :=
  (by decide +kernel : ∀ t : Fin grid0.N, _)

/-- Every block of rows is some point's. -/
theorem index_onto : ∀ q0 : Fin 5, ∃ t : Fin cfg0.N, win0_2.index t = ![q0.val, 0] :=
  (by decide +kernel : ∀ q0 : Fin 5, ∃ t : Fin grid0.N, win0_2.index t = ![q0.val, 0])

/-- What point `t` writes back is block `t` of the whole product of the arrays the region finds. -/
theorem flushed_eq (c : Dev nD) (t : Fin cfg0.N) :
    (dat0 V c).flushed 2 t
      = ((cfg0.win 2).blk t).view.read (Elt Ideal) (Cert.Gcn.mm (F := Ideal) (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x128) zero_offsets]
  obtain ⟨e0, e1, e2, e3, e4, e5⟩ := index_maps t
  funext j
  obtain ⟨p, q, rfl⟩ : ∃ (p : Fin 10000) (q : Fin 128), j = ix2 p q := ⟨j 0, j 1, eq_ix2 j⟩
  have hP : win0_2.index t (0 : Fin 2) * 10000 + p.val < 50000 := by have := p.isLt; omega
  have hemb : ((cfg0.win 2).blk t).view.emb (ix2 p q) = ix2 ⟨win0_2.index t (0 : Fin 2) * 10000 + p.val, hP⟩ q := by
    funext a; apply Fin.ext
    match a with
    | ⟨0, _⟩ => show win0_2.index t (0 : Fin 2) * 10000 + 1 * p.val = win0_2.index t (0 : Fin 2) * 10000 + p.val; omega
    | ⟨1, _⟩ => show win0_2.index t (1 : Fin 2) * 128 + 1 * q.val = q.val; omega
  show k0_pay1 (F := Ideal) (iblk0 V c 0 t) (iblk0 V c 1 t) (ix2 p q)
    = Cert.Gcn.mm (F := Ideal) (V c main_arg0) (V c main_arg2) (((cfg0.win 2).blk t).view.emb (ix2 p q))
  rw [hemb]
  refine block_entry (iblk0 V c 0 t) (iblk0 V c 1 t) (V c main_arg0) (V c main_arg2) _ p q (fun k => ?_) (fun k => ?_)
  · show V c main_arg0 (((cfg0.win 0).blk t).view.emb (ix2 p k)) = V c main_arg0 (ix2 ⟨win0_2.index t (0 : Fin 2) * 10000 + p.val, hP⟩ k)
    refine congrArg _ (funext fun a => Fin.ext ?_)
    match a with
    | ⟨0, _⟩ => show win0_0.index t (0 : Fin 2) * 10000 + 1 * p.val = win0_2.index t (0 : Fin 2) * 10000 + p.val; omega
    | ⟨1, _⟩ => show win0_0.index t (1 : Fin 2) * 128 + 1 * k.val = k.val; omega
  · show V c main_arg2 (((cfg0.win 1).blk t).view.emb (ix2 k q)) = V c main_arg2 (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega

/-- An index of the output array is in point `t`'s block iff each coordinate is in the block's range. -/
theorem mem_block (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v27).slice (win0_2.rect t)).set ↔ _
  rw [View.set_slice_whole, Rect.mem_set_unit]
  exact Iff.rfl

/-- The five blocks tile the output: row `r` is in the block of point `r / 10000`. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After the region its output array is the product of the two arrays it found. -/
theorem final (c : Dev nD) :
    (dat0 V c).arrAt 2 cfg0.N = Cert.Gcn.mm (F := Ideal) (V c main_arg0) (V c main_arg2) :=
  (dat0 V c).arrAt_eq_of_cover 2 _ (fun t _ => flushed_eq V c t) covered

end Cert.KernelIdeal.Mm0

end
-- ==== Proof.Ep1.lean ====
/-
  Region 1 of the idealized kernel adds a bias to every row and clamps the sum below at zero: grid point `t` loads rows
  `10000·t … 10000·t + 9999` of the 50000×128 array of its first window and the one row of its second window, and
  writes `max (A (r, q) + B (0, q)) 0` back to the same rows of its output. When the one row `B` is a bias vector `b` laid out
  as a 1×128 array, entry `(r, q)` is the entry of `relu (bias A b)` there; the five blocks tile the output, so
  after the region the output array is that whole-array function of what the region found.
-/
import proofs.«124595_j1632087573166_1_alg».proof.Proof.Gen.KernelIdeal.Frame
import proofs.«124595_j1632087573166_1_alg».proof.Proof.Spec
import Idealize.ShloMosaic.Lib.Pipeline.Value
import Idealize.ShloMosaic.Lib.ValueIdx

set_option maxRecDepth 16384

noncomputable section

namespace Cert.KernelIdeal.Ep1

open Cert.KernelIdeal Cert.KernelIdeal.Gen Idealize.ShloMosaic Idealize.ShloMosaic.TcCoe Idealize.SL.Sem
open Idealize.ShloMosaic.ValueIdx
open Idealize.ShloMosaic.Pipeline (Dat)

variable [Cert.ReferenceIdeal.Facts₀]

variable (V : (c : Dev nD) → (b : Ref sig .tc) → Buf (Elt Ideal) ((c : Thread nD τ).loc b))

theorem zero_offsets : (![0, 0] : Fin 2 → Nat) = fun _ => 0 := funext fun a => by fin_cases a <;> rfl

/-- Entry `(p, q)` of what a point stores is the whole-array function's entry `(P, q)`, when entry `(p, q)` of the
    block it loads is entry `(P, q)` of the array and the row it loads holds the bias. -/
theorem block_entry (x0 : Vec Ideal S10000x128 .f32) (x1 : Vec Ideal S1x128 .f32)
    (A : S50000x128.Idx → EReal) (b : S128.Idx → EReal) (P : Fin 50000) (p : Fin 10000) (q : Fin 128)
    (hx : x0 (ix2 p q) = A (ix2 P q)) (hb : x1 (ix2 (0 : Fin 1) q) = b (ix1 q)) :
    k1_pay1 (F := Ideal) x0 x1 (ix2 p q) = Cert.Gcn.relu (F := Ideal) (Cert.Gcn.bias (F := Ideal) A b) (ix2 P q) := by
  unfold k1_pay1 Cert.Gcn.relu Cert.Gcn.bias
  rw [maximumf_apply, maximumf_apply, addf_apply, addf_apply, shapeCast_self, shapeCast_self]
  rw [broadcastTo_apply x1 _ (ix2 p q) (ix2 (0 : Fin 1) q) (fun a => by match a with | ⟨0, _⟩ => rfl | ⟨1, _⟩ => rfl)]
  rw [broadcastInDim_apply _ _ _ (ix2 P q) (ix2 (0 : Fin 1) q) (fun a => by match a with | ⟨0, _⟩ => rfl | ⟨1, _⟩ => rfl)]
  rw [broadcastInDim_apply _ _ b (ix2 (0 : Fin 1) q) (ix1 q) (fun a => by match a with | ⟨0, _⟩ => rfl)]
  rw [hx, hb]
  rfl

/-- The printed index maps over the five grid points: the first window and the output move together down the
    rows, the bias row stays. -/
theorem index_maps : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 4 :=
  (by decide +kernel : ∀ t : Fin grid1.N, _)

/-- Every block of rows is some point's. -/
theorem index_onto : ∀ q0 : Fin 5, ∃ t : Fin cfg1.N, win1_2.index t = ![q0.val, 0] :=
  (by decide +kernel : ∀ q0 : Fin 5, ∃ t : Fin grid1.N, win1_2.index t = ![q0.val, 0])

/-- What point `t` writes back is block `t` of the whole-array function of what the region finds. -/
theorem flushed_eq (c : Dev nD) (t : Fin cfg1.N) (b : S128.Idx → EReal)
    (hb : ∀ q : Fin 128, V c main_v41 (ix2 (0 : Fin 1) q) = b (ix1 q)) :
    (dat1 V c).flushed 2 t
      = ((cfg1.win 2).blk t).view.read (Elt Ideal) (Cert.Gcn.relu (F := Ideal) (Cert.Gcn.bias (F := Ideal) (V c main_v40) b)) := by
  show (cfg1.win 2).cut (grid1.coords t) ((dat1 V c).after 2 t) = _
  rw [after1_2]
  unfold out1_2
  rw [View.canon_unit_zero zero_offsets]
  simp only [View.ld_unit_zero (S := S10000x128) zero_offsets, View.ld_unit_zero (S := S1x128) zero_offsets]
  obtain ⟨e0, e1, e2, e3, e4, e5⟩ := index_maps t
  funext j
  obtain ⟨p, q, rfl⟩ : ∃ (p : Fin 10000) (q : Fin 128), j = ix2 p q := ⟨j 0, j 1, eq_ix2 j⟩
  have hP : win1_2.index t (0 : Fin 2) * 10000 + p.val < 50000 := by have := p.isLt; omega
  have hemb : ((cfg1.win 2).blk t).view.emb (ix2 p q) = ix2 ⟨win1_2.index t (0 : Fin 2) * 10000 + p.val, hP⟩ q := by
    funext a; apply Fin.ext
    match a with
    | ⟨0, _⟩ => show win1_2.index t (0 : Fin 2) * 10000 + 1 * p.val = win1_2.index t (0 : Fin 2) * 10000 + p.val; omega
    | ⟨1, _⟩ => show win1_2.index t (1 : Fin 2) * 128 + 1 * q.val = q.val; omega
  show k1_pay1 (F := Ideal) (iblk1 V c 0 t) (iblk1 V c 1 t) (ix2 p q)
    = Cert.Gcn.relu (F := Ideal) (Cert.Gcn.bias (F := Ideal) (V c main_v40) b) (((cfg1.win 2).blk t).view.emb (ix2 p q))
  rw [hemb]
  refine block_entry (iblk1 V c 0 t) (iblk1 V c 1 t) (V c main_v40) b _ p q ?_ ?_
  · show V c main_v40 (((cfg1.win 0).blk t).view.emb (ix2 p q)) = V c main_v40 (ix2 ⟨win1_2.index t (0 : Fin 2) * 10000 + p.val, hP⟩ q)
    refine congrArg _ (funext fun a => Fin.ext ?_)
    match a with
    | ⟨0, _⟩ => show win1_0.index t (0 : Fin 2) * 10000 + 1 * p.val = win1_2.index t (0 : Fin 2) * 10000 + p.val; omega
    | ⟨1, _⟩ => show win1_0.index t (1 : Fin 2) * 128 + 1 * q.val = q.val; omega
  · show V c main_v41 (((cfg1.win 1).blk t).view.emb (ix2 (0 : Fin 1) q)) = b (ix1 q)
    rw [← hb q]
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega

/-- An index of the output array is in point `t`'s block iff each coordinate is in the block's range. -/
theorem mem_block (t : Fin cfg1.N) (i : S50000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v42).slice (win1_2.rect t)).set ↔ _
  rw [View.set_slice_whole, Rect.mem_set_unit]
  exact Iff.rfl

/-- The five blocks tile the output: row `r` is in the block of point `r / 10000`. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := index_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- After the region its output array is the whole-array function of the array and the bias row it found. -/
theorem final (c : Dev nD) (b : S128.Idx → EReal)
    (hb : ∀ q : Fin 128, V c main_v41 (ix2 (0 : Fin 1) q) = b (ix1 q)) :
    (dat1 V c).arrAt 2 cfg1.N = Cert.Gcn.relu (F := Ideal) (Cert.Gcn.bias (F := Ideal) (V c main_v40) b) :=
  (dat1 V c).arrAt_eq_of_cover 2 _ (fun t _ => flushed_eq V c t b hb) covered

end Cert.KernelIdeal.Ep1

end
-- ==== Proof.Mm2.lean ====
/-
  Region 2 of the idealized kernel is a matrix product tiled over its rows: grid point `t` multiplies rows
  `10000·t … 10000·t + 9999` of the 50000×128 array it finds in its first window by the whole 128×128 weight array of
  its second window, into the zero accumulator, and writes the 10000×128 block back to the same rows of its output.
  On the extended reals entry `(p, q)` of a block is `∑ₖ X (10000·t + p, k) · W (k, q)`, which is entry
  `(10000·t + p, q)` of the one product `X · W` (a change of float format is the identity there); the five blocks
  tile the output, so after the region the output array is `X · W`.
-/
import proofs.«124595_j1632087573166_1_alg».proof.Proof.Gen.KernelIdeal.Frame
import proofs.«124595_j1632087573166_1_alg».proof.Proof.Spec
import proofs.«124595_j1632087573166_1_alg».proof.Proof.LibRowBlock
import Idealize.ShloMosaic.Lib.Pipeline.Value
import Idealize.ShloMosaic.Lib.ValueIdx

set_option maxRecDepth 16384

noncomputable section

namespace Cert.KernelIdeal.Mm2

open Cert.KernelIdeal Cert.KernelIdeal.Gen Idealize.ShloMosaic Idealize.ShloMosaic.TcCoe Idealize.SL.Sem
open Idealize.ShloMosaic.ValueIdx
open Idealize.ShloMosaic.Pipeline (Dat)

variable [Cert.ReferenceIdeal.Facts₀]

variable (V : (c : Dev nD) → (b : Ref sig .tc) → Buf (Elt Ideal) ((c : Thread nD τ).loc b))

theorem zero_offsets : (![0, 0] : Fin 2 → Nat) = fun _ => 0 := funext fun a => by fin_cases a <;> rfl

/-- Entry `(p, q)` of a point's product is entry `(P, q)` of the whole product, when row `p` of the block it loads is
    row `P` of the array and the weights it loads are the weight array. -/
theorem block_entry (x0 : Vec Ideal S10000x128 .f32) (x1 : Vec Ideal S128x128 .f32)
    (X : S50000x128.Idx → EReal) (W : S128x128.Idx → EReal) (P : Fin 50000) (p : Fin 10000) (q : Fin 128)
    (hx : ∀ k : Fin 128, x0 (ix2 p k) = X (ix2 P k)) (hw : ∀ k : Fin 128, x1 (ix2 k q) = W (ix2 k q)) :
    k2_pay1 (F := Ideal) x0 x1 (ix2 p q) = Cert.Gcn.mm (F := Ideal) X W (ix2 P q) := by
  unfold k2_pay1 Cert.Gcn.mm
  exact Cert.Lib.RowBlock.matmul_eq_dotGeneral none none .single X W _ _ P p q
    (fun k => (congrFun (shapeCast_self x0 _) (ix2 p k)).trans (hx k)) (fun k => hw k)

/-- The printed index maps over the five grid points: the first window and the output move together down the
    rows, the weights stay. -/
theorem index_maps : ∀ t : Fin cfg2.N, win2_0.index t (0 : Fin 2) = win2_2.index t (0 : Fin 2)
    ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 4 :=
  (by decide +kernel : ∀ t : Fin grid2.N, _)

/-- Every block of rows is some point's. -/
theorem index_onto : ∀ q0 : Fin 5, ∃ t : Fin cfg2.N, win2_2.index t = ![q0.val, 0] :=
  (by decide +kernel : ∀ q0 : Fin 5, ∃ t : Fin grid2.N, win2_2.index t = ![q0.val, 0])

/-- What point `t` writes back is block `t` of the whole product of the arrays the region finds. -/
theorem flushed_eq (c : Dev nD) (t : Fin cfg2.N) :
    (dat2 V c).flushed 2 t
      = ((cfg2.win 2).blk t).view.read (Elt Ideal) (Cert.Gcn.mm (F := Ideal) (V c main_v42) (V c main_arg4)) := by
  show (cfg2.win 2).cut (grid2.coords t) ((dat2 V c).after 2 t) = _
  rw [after2_2]
  unfold out2_2
  rw [View.canon_unit_zero zero_offsets]
  simp only [View.ld_unit_zero (S := S10000x128) zero_offsets, View.ld_unit_zero (S := S128x128) zero_offsets]
  obtain ⟨e0, e1, e2, e3, e4, e5⟩ := index_maps t
  funext j
  obtain ⟨p, q, rfl⟩ : ∃ (p : Fin 10000) (q : Fin 128), j = ix2 p q := ⟨j 0, j 1, eq_ix2 j⟩
  have hP : win2_2.index t (0 : Fin 2) * 10000 + p.val < 50000 := by have := p.isLt; omega
  have hemb : ((cfg2.win 2).blk t).view.emb (ix2 p q) = ix2 ⟨win2_2.index t (0 : Fin 2) * 10000 + p.val, hP⟩ q := by
    funext a; apply Fin.ext
    match a with
    | ⟨0, _⟩ => show win2_2.index t (0 : Fin 2) * 10000 + 1 * p.val = win2_2.index t (0 : Fin 2) * 10000 + p.val; omega
    | ⟨1, _⟩ => show win2_2.index t (1 : Fin 2) * 128 + 1 * q.val = q.val; omega
  show k2_pay1 (F := Ideal) (iblk2 V c 0 t) (iblk2 V c 1 t) (ix2 p q)
    = Cert.Gcn.mm (F := Ideal) (V c main_v42) (V c main_arg4) (((cfg2.win 2).blk t).view.emb (ix2 p q))
  rw [hemb]
  refine block_entry (iblk2 V c 0 t) (iblk2 V c 1 t) (V c main_v42) (V c main_arg4) _ p q (fun k => ?_) (fun k => ?_)
  · show V c main_v42 (((cfg2.win 0).blk t).view.emb (ix2 p k)) = V c main_v42 (ix2 ⟨win2_2.index t (0 : Fin 2) * 10000 + p.val, hP⟩ k)
    refine congrArg _ (funext fun a => Fin.ext ?_)
    match a with
    | ⟨0, _⟩ => show win2_0.index t (0 : Fin 2) * 10000 + 1 * p.val = win2_2.index t (0 : Fin 2) * 10000 + p.val; omega
    | ⟨1, _⟩ => show win2_0.index t (1 : Fin 2) * 128 + 1 * k.val = k.val; omega
  · show V c main_arg4 (((cfg2.win 1).blk t).view.emb (ix2 k q)) = V c main_arg4 (ix2 k q)
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega

/-- An index of the output array is in point `t`'s block iff each coordinate is in the block's range. -/
theorem mem_block (t : Fin cfg2.N) (i : S50000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v43).slice (win2_2.rect t)).set ↔ _
  rw [View.set_slice_whole, Rect.mem_set_unit]
  exact Iff.rfl

/-- The five blocks tile the output: row `r` is in the block of point `r / 10000`. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := index_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- After the region its output array is the product of the two arrays it found. -/
theorem final (c : Dev nD) :
    (dat2 V c).arrAt 2 cfg2.N = Cert.Gcn.mm (F := Ideal) (V c main_v42) (V c main_arg4) :=
  (dat2 V c).arrAt_eq_of_cover 2 _ (fun t _ => flushed_eq V c t) covered

end Cert.KernelIdeal.Mm2

end
-- ==== Proof.Ep3.lean ====
/-
  Region 3 of the idealized kernel adds a bias to every row and clamps the sum below at zero: grid point `t` loads rows
  `10000·t … 10000·t + 9999` of the 50000×128 array of its first window and the one row of its second window, and
  writes `max (A (r, q) + B (0, q)) 0` back to the same rows of its output. When the one row `B` is a bias vector `b` laid out
  as a 1×128 array, entry `(r, q)` is the entry of `relu (bias A b)` there; the five blocks tile the output, so
  after the region the output array is that whole-array function of what the region found.
-/
import proofs.«124595_j1632087573166_1_alg».proof.Proof.Gen.KernelIdeal.Frame
import proofs.«124595_j1632087573166_1_alg».proof.Proof.Spec
import Idealize.ShloMosaic.Lib.Pipeline.Value
import Idealize.ShloMosaic.Lib.ValueIdx

set_option maxRecDepth 16384

noncomputable section

namespace Cert.KernelIdeal.Ep3

open Cert.KernelIdeal Cert.KernelIdeal.Gen Idealize.ShloMosaic Idealize.ShloMosaic.TcCoe Idealize.SL.Sem
open Idealize.ShloMosaic.ValueIdx
open Idealize.ShloMosaic.Pipeline (Dat)

variable [Cert.ReferenceIdeal.Facts₀]

variable (V : (c : Dev nD) → (b : Ref sig .tc) → Buf (Elt Ideal) ((c : Thread nD τ).loc b))

theorem zero_offsets : (![0, 0] : Fin 2 → Nat) = fun _ => 0 := funext fun a => by fin_cases a <;> rfl

/-- Entry `(p, q)` of what a point stores is the whole-array function's entry `(P, q)`, when entry `(p, q)` of the
    block it loads is entry `(P, q)` of the array and the row it loads holds the bias. -/
theorem block_entry (x0 : Vec Ideal S10000x128 .f32) (x1 : Vec Ideal S1x128 .f32)
    (A : S50000x128.Idx → EReal) (b : S128.Idx → EReal) (P : Fin 50000) (p : Fin 10000) (q : Fin 128)
    (hx : x0 (ix2 p q) = A (ix2 P q)) (hb : x1 (ix2 (0 : Fin 1) q) = b (ix1 q)) :
    k3_pay1 (F := Ideal) x0 x1 (ix2 p q) = Cert.Gcn.relu (F := Ideal) (Cert.Gcn.bias (F := Ideal) A b) (ix2 P q) := by
  unfold k3_pay1 Cert.Gcn.relu Cert.Gcn.bias
  rw [maximumf_apply, maximumf_apply, addf_apply, addf_apply, shapeCast_self, shapeCast_self]
  rw [broadcastTo_apply x1 _ (ix2 p q) (ix2 (0 : Fin 1) q) (fun a => by match a with | ⟨0, _⟩ => rfl | ⟨1, _⟩ => rfl)]
  rw [broadcastInDim_apply _ _ _ (ix2 P q) (ix2 (0 : Fin 1) q) (fun a => by match a with | ⟨0, _⟩ => rfl | ⟨1, _⟩ => rfl)]
  rw [broadcastInDim_apply _ _ b (ix2 (0 : Fin 1) q) (ix1 q) (fun a => by match a with | ⟨0, _⟩ => rfl)]
  rw [hx, hb]
  rfl

/-- The printed index maps over the five grid points: the first window and the output move together down the
    rows, the bias row stays. -/
theorem index_maps : ∀ t : Fin cfg3.N, win3_0.index t (0 : Fin 2) = win3_2.index t (0 : Fin 2)
    ∧ win3_0.index t (1 : Fin 2) = 0
    ∧ win3_1.index t (0 : Fin 2) = 0 ∧ win3_1.index t (1 : Fin 2) = 0
    ∧ win3_2.index t (1 : Fin 2) = 0 ∧ win3_2.index t (0 : Fin 2) ≤ 4 :=
  (by decide +kernel : ∀ t : Fin grid3.N, _)

/-- Every block of rows is some point's. -/
theorem index_onto : ∀ q0 : Fin 5, ∃ t : Fin cfg3.N, win3_2.index t = ![q0.val, 0] :=
  (by decide +kernel : ∀ q0 : Fin 5, ∃ t : Fin grid3.N, win3_2.index t = ![q0.val, 0])

/-- What point `t` writes back is block `t` of the whole-array function of what the region finds. -/
theorem flushed_eq (c : Dev nD) (t : Fin cfg3.N) (b : S128.Idx → EReal)
    (hb : ∀ q : Fin 128, V c main_v57 (ix2 (0 : Fin 1) q) = b (ix1 q)) :
    (dat3 V c).flushed 2 t
      = ((cfg3.win 2).blk t).view.read (Elt Ideal) (Cert.Gcn.relu (F := Ideal) (Cert.Gcn.bias (F := Ideal) (V c main_v56) b)) := by
  show (cfg3.win 2).cut (grid3.coords t) ((dat3 V c).after 2 t) = _
  rw [after3_2]
  unfold out3_2
  rw [View.canon_unit_zero zero_offsets]
  simp only [View.ld_unit_zero (S := S10000x128) zero_offsets, View.ld_unit_zero (S := S1x128) zero_offsets]
  obtain ⟨e0, e1, e2, e3, e4, e5⟩ := index_maps t
  funext j
  obtain ⟨p, q, rfl⟩ : ∃ (p : Fin 10000) (q : Fin 128), j = ix2 p q := ⟨j 0, j 1, eq_ix2 j⟩
  have hP : win3_2.index t (0 : Fin 2) * 10000 + p.val < 50000 := by have := p.isLt; omega
  have hemb : ((cfg3.win 2).blk t).view.emb (ix2 p q) = ix2 ⟨win3_2.index t (0 : Fin 2) * 10000 + p.val, hP⟩ q := by
    funext a; apply Fin.ext
    match a with
    | ⟨0, _⟩ => show win3_2.index t (0 : Fin 2) * 10000 + 1 * p.val = win3_2.index t (0 : Fin 2) * 10000 + p.val; omega
    | ⟨1, _⟩ => show win3_2.index t (1 : Fin 2) * 128 + 1 * q.val = q.val; omega
  show k3_pay1 (F := Ideal) (iblk3 V c 0 t) (iblk3 V c 1 t) (ix2 p q)
    = Cert.Gcn.relu (F := Ideal) (Cert.Gcn.bias (F := Ideal) (V c main_v56) b) (((cfg3.win 2).blk t).view.emb (ix2 p q))
  rw [hemb]
  refine block_entry (iblk3 V c 0 t) (iblk3 V c 1 t) (V c main_v56) b _ p q ?_ ?_
  · show V c main_v56 (((cfg3.win 0).blk t).view.emb (ix2 p q)) = V c main_v56 (ix2 ⟨win3_2.index t (0 : Fin 2) * 10000 + p.val, hP⟩ q)
    refine congrArg _ (funext fun a => Fin.ext ?_)
    match a with
    | ⟨0, _⟩ => show win3_0.index t (0 : Fin 2) * 10000 + 1 * p.val = win3_2.index t (0 : Fin 2) * 10000 + p.val; omega
    | ⟨1, _⟩ => show win3_0.index t (1 : Fin 2) * 128 + 1 * q.val = q.val; omega
  · show V c main_v57 (((cfg3.win 1).blk t).view.emb (ix2 (0 : Fin 1) q)) = b (ix1 q)
    rw [← hb q]
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * q.val = q.val; omega

/-- An index of the output array is in point `t`'s block iff each coordinate is in the block's range. -/
theorem mem_block (t : Fin cfg3.N) (i : S50000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v58).slice (win3_2.rect t)).set ↔ _
  rw [View.set_slice_whole, Rect.mem_set_unit]
  exact Iff.rfl

/-- The five blocks tile the output: row `r` is in the block of point `r / 10000`. -/
theorem covered (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := index_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- After the region its output array is the whole-array function of the array and the bias row it found. -/
theorem final (c : Dev nD) (b : S128.Idx → EReal)
    (hb : ∀ q : Fin 128, V c main_v57 (ix2 (0 : Fin 1) q) = b (ix1 q)) :
    (dat3 V c).arrAt 2 cfg3.N = Cert.Gcn.relu (F := Ideal) (Cert.Gcn.bias (F := Ideal) (V c main_v56) b) :=
  (dat3 V c).arrAt_eq_of_cover 2 _ (fun t _ => flushed_eq V c t b hb) covered

end Cert.KernelIdeal.Ep3

end
-- ==== Proof.Mm4.lean ====
/-
  Region 4 of the idealized kernel is a matrix product tiled over its rows: grid point `t` multiplies rows
  `10000·t … 10000·t + 9999` of the 50000×128 array it finds in its first window by the whole 128×64 weight array of
  its second window, into the zero accumulator, and writes the 10000×64 block back to the same rows of its output.
  On the extended reals entry `(p, q)` of a block is `∑ₖ X (10000·t + p, k) · W (k, q)`, which is entry
  `(10000·t + p, q)` of the one product `X · W` (a change of float format is the identity there); the five blocks
  tile the output, so after the region the output array is `X · W`.
-/
import proofs.«124595_j1632087573166_1_alg».proof.Proof.Gen.KernelIdeal.Frame
import proofs.«124595_j1632087573166_1_alg».proof.Proof.Spec
import proofs.«124595_j1632087573166_1_alg».proof.Proof.LibRowBlock
import Idealize.ShloMosaic.Lib.Pipeline.Value
import Idealize.ShloMosaic.Lib.ValueIdx

set_option maxRecDepth 16384

noncomputable section

namespace Cert.KernelIdeal.Mm4

open Cert.KernelIdeal Cert.KernelIdeal.Gen Idealize.ShloMosaic Idealize.ShloMosaic.TcCoe Idealize.SL.Sem
open Idealize.ShloMosaic.ValueIdx
open Idealize.ShloMosaic.Pipeline (Dat)

variable [Cert.ReferenceIdeal.Facts₀]

variable (V : (c : Dev nD) → (b : Ref sig .tc) → Buf (Elt Ideal) ((c : Thread nD τ).loc b))

theorem zero_offsets : (![0, 0] : Fin 2 → Nat) = fun _ => 0 := funext fun a => by fin_cases a <;> rfl

/-- Entry `(p, q)` of a point's product is entry `(P, q)` of the whole product, when row `p` of the block it loads is
    row `P` of the array and the weights it loads are the weight array. -/
theorem block_entry (x0 : Vec Ideal S10000x128 .f32) (x1 : Vec Ideal S128x64 .f32)
    (X : S50000x128.Idx → EReal) (W : S128x64.Idx → EReal) (P : Fin 50000) (p : Fin 10000) (q : Fin 64)
    (hx : ∀ k : Fin 128, x0 (ix2 p k) = X (ix2 P k)) (hw : ∀ k : Fin 128, x1 (ix2 k q) = W (ix2 k q)) :
    k4_pay1 (F := Ideal) x0 x1 (ix2 p q) = Cert.Gcn.mm64 (F := Ideal) X W (ix2 P q) := by
  unfold k4_pay1 Cert.Gcn.mm64
  exact Cert.Lib.RowBlock.matmul_eq_dotGeneral none none .single X W _ _ P p q
    (fun k => (congrFun (shapeCast_self x0 _) (ix2 p k)).trans (hx k)) (fun k => hw k)

/-- The printed index maps over the five grid points: the first window and the output move together down the
    rows, the weights stay. -/
theorem index_maps : ∀ t : Fin cfg4.N, win4_0.index t (0 : Fin 2) = win4_2.index t (0 : Fin 2)
    ∧ win4_0.index t (1 : Fin 2) = 0
    ∧ win4_1.index t (0 : Fin 2) = 0 ∧ win4_1.index t (1 : Fin 2) = 0
    ∧ win4_2.index t (1 : Fin 2) = 0 ∧ win4_2.index t (0 : Fin 2) ≤ 4 :=
  (by decide +kernel : ∀ t : Fin grid4.N, _)

/-- Every block of rows is some point's. -/
theorem index_onto : ∀ q0 : Fin 5, ∃ t : Fin cfg4.N, win4_2.index t = ![q0.val, 0] :=
  (by decide +kernel : ∀ q0 : Fin 5, ∃ t : Fin grid4.N, win4_2.index t = ![q0.val, 0])

/-- What point `t` writes back is block `t` of the whole product of the arrays the region finds. -/
theorem flushed_eq (c : Dev nD) (t : Fin cfg4.N) :
    (dat4 V c).flushed 2 t
      = ((cfg4.win 2).blk t).view.read (Elt Ideal) (Cert.Gcn.mm64 (F := Ideal) (V c main_v58) (V c main_arg6)) := by
  show (cfg4.win 2).cut (grid4.coords t) ((dat4 V c).after 2 t) = _
  rw [after4_2]
  unfold out4_2
  rw [View.canon_unit_zero zero_offsets]
  simp only [View.ld_unit_zero (S := S10000x128) zero_offsets, View.ld_unit_zero (S := S128x64) zero_offsets]
  obtain ⟨e0, e1, e2, e3, e4, e5⟩ := index_maps t
  funext j
  obtain ⟨p, q, rfl⟩ : ∃ (p : Fin 10000) (q : Fin 64), j = ix2 p q := ⟨j 0, j 1, eq_ix2 j⟩
  have hP : win4_2.index t (0 : Fin 2) * 10000 + p.val < 50000 := by have := p.isLt; omega
  have hemb : ((cfg4.win 2).blk t).view.emb (ix2 p q) = ix2 ⟨win4_2.index t (0 : Fin 2) * 10000 + p.val, hP⟩ q := by
    funext a; apply Fin.ext
    match a with
    | ⟨0, _⟩ => show win4_2.index t (0 : Fin 2) * 10000 + 1 * p.val = win4_2.index t (0 : Fin 2) * 10000 + p.val; omega
    | ⟨1, _⟩ => show win4_2.index t (1 : Fin 2) * 64 + 1 * q.val = q.val; omega
  show k4_pay1 (F := Ideal) (iblk4 V c 0 t) (iblk4 V c 1 t) (ix2 p q)
    = Cert.Gcn.mm64 (F := Ideal) (V c main_v58) (V c main_arg6) (((cfg4.win 2).blk t).view.emb (ix2 p q))
  rw [hemb]
  refine block_entry (iblk4 V c 0 t) (iblk4 V c 1 t) (V c main_v58) (V c main_arg6) _ p q (fun k => ?_) (fun k => ?_)
  · show V c main_v58 (((cfg4.win 0).blk t).view.emb (ix2 p k)) = V c main_v58 (ix2 ⟨win4_2.index t (0 : Fin 2) * 10000 + p.val, hP⟩ k)
    refine congrArg _ (funext fun a => Fin.ext ?_)
    match a with
    | ⟨0, _⟩ => show win4_0.index t (0 : Fin 2) * 10000 + 1 * p.val = win4_2.index t (0 : Fin 2) * 10000 + p.val; omega
    | ⟨1, _⟩ => show win4_0.index t (1 : Fin 2) * 128 + 1 * k.val = k.val; omega
  · show V c main_arg6 (((cfg4.win 1).blk t).view.emb (ix2 k q)) = V c main_arg6 (ix2 k q)
    refine congrArg _ (funext fun a => Fin.ext ?_)
    match a with
    | ⟨0, _⟩ => show win4_1.index t (0 : Fin 2) * 128 + 1 * k.val = k.val; omega
    | ⟨1, _⟩ => show win4_1.index t (1 : Fin 2) * 64 + 1 * q.val = q.val; omega

/-- An index of the output array is in point `t`'s block iff each coordinate is in the block's range. -/
theorem mem_block (t : Fin cfg4.N) (i : S50000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v59).slice (win4_2.rect t)).set ↔ _
  rw [View.set_slice_whole, Rect.mem_set_unit]
  exact Iff.rfl

/-- The five blocks tile the output: row `r` is in the block of point `r / 10000`. -/
theorem covered (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  obtain ⟨t, ht⟩ := index_onto ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_block]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- After the region its output array is the product of the two arrays it found. -/
theorem final (c : Dev nD) :
    (dat4 V c).arrAt 2 cfg4.N = Cert.Gcn.mm64 (F := Ideal) (V c main_v58) (V c main_arg6) :=
  (dat4 V c).arrAt_eq_of_cover 2 _ (fun t _ => flushed_eq V c t) covered

end Cert.KernelIdeal.Mm4

end
-- ==== Proof.Ep5.lean ====
/-
  Region 5 of the idealized kernel adds a bias to every row: grid point `t` loads rows
  `10000·t … 10000·t + 9999` of the 50000×64 array of its first window and the one row of its second window, and
  writes `A (r, q) + B (0, q)` back to the same rows of its output. When the one row `B` is a bias vector `b` laid out
  as a 1×64 array, entry `(r, q)` is the entry of `bias64 A b` there; the five blocks tile the output, so
  after the region the output array is that whole-array function of what the region found.
-/
import proofs.«124595_j1632087573166_1_alg».proof.Proof.Gen.KernelIdeal.Frame
import proofs.«124595_j1632087573166_1_alg».proof.Proof.Spec
import Idealize.ShloMosaic.Lib.Pipeline.Value
import Idealize.ShloMosaic.Lib.ValueIdx

set_option maxRecDepth 16384

noncomputable section

namespace Cert.KernelIdeal.Ep5

open Cert.KernelIdeal Cert.KernelIdeal.Gen Idealize.ShloMosaic Idealize.ShloMosaic.TcCoe Idealize.SL.Sem
open Idealize.ShloMosaic.ValueIdx
open Idealize.ShloMosaic.Pipeline (Dat)

variable [Cert.ReferenceIdeal.Facts₀]

variable (V : (c : Dev nD) → (b : Ref sig .tc) → Buf (Elt Ideal) ((c : Thread nD τ).loc b))

theorem zero_offsets : (![0, 0] : Fin 2 → Nat) = fun _ => 0 := funext fun a => by fin_cases a <;> rfl

/-- Entry `(p, q)` of what a point stores is the whole-array function's entry `(P, q)`, when entry `(p, q)` of the
    block it loads is entry `(P, q)` of the array and the row it loads holds the bias. -/
theorem block_entry (x0 : Vec Ideal S10000x64 .f32) (x1 : Vec Ideal S1x64 .f32)
    (A : S50000x64.Idx → EReal) (b : S64.Idx → EReal) (P : Fin 50000) (p : Fin 10000) (q : Fin 64)
    (hx : x0 (ix2 p q) = A (ix2 P q)) (hb : x1 (ix2 (0 : Fin 1) q) = b (ix1 q)) :
    k5_pay1 (F := Ideal) x0 x1 (ix2 p q) = Cert.Gcn.bias64 (F := Ideal) A b (ix2 P q) := by
  unfold k5_pay1 Cert.Gcn.bias64
  rw [addf_apply, addf_apply, shapeCast_self, shapeCast_self]
  rw [broadcastTo_apply x1 _ (ix2 p q) (ix2 (0 : Fin 1) q) (fun a => by match a with | ⟨0, _⟩ => rfl | ⟨1, _⟩ => rfl)]
  rw [broadcastInDim_apply _ _ _ (ix2 P q) (ix2 (0 : Fin 1) q) (fun a => by match a with | ⟨0, _⟩ => rfl | ⟨1, _⟩ => rfl)]
  rw [broadcastInDim_apply _ _ b (ix2 (0 : Fin 1) q) (ix1 q) (fun a => by match a with | ⟨0, _⟩ => rfl)]
  rw [hx, hb]

/-- The printed index maps over the five grid points: the first window and the output move together down the
    rows, the bias row stays. -/
theorem index_maps : ∀ t : Fin cfg5.N, win5_0.index t (0 : Fin 2) = win5_2.index t (0 : Fin 2)
    ∧ win5_0.index t (1 : Fin 2) = 0
    ∧ win5_1.index t (0 : Fin 2) = 0 ∧ win5_1.index t (1 : Fin 2) = 0
    ∧ win5_2.index t (1 : Fin 2) = 0 ∧ win5_2.index t (0 : Fin 2) ≤ 4 :=
  (by decide +kernel : ∀ t : Fin grid5.N, _)

/-- Every block of rows is some point's. -/
theorem index_onto : ∀ q0 : Fin 5, ∃ t : Fin cfg5.N, win5_2.index t = ![q0.val, 0] :=
  (by decide +kernel : ∀ q0 : Fin 5, ∃ t : Fin grid5.N, win5_2.index t = ![q0.val, 0])

/-- What point `t` writes back is block `t` of the whole-array function of what the region finds. -/
theorem flushed_eq (c : Dev nD) (t : Fin cfg5.N) (b : S64.Idx → EReal)
    (hb : ∀ q : Fin 64, V c main_v73 (ix2 (0 : Fin 1) q) = b (ix1 q)) :
    (dat5 V c).flushed 2 t
      = ((cfg5.win 2).blk t).view.read (Elt Ideal) (Cert.Gcn.bias64 (F := Ideal) (V c main_v72) b) := by
  show (cfg5.win 2).cut (grid5.coords t) ((dat5 V c).after 2 t) = _
  rw [after5_2]
  unfold out5_2
  rw [View.canon_unit_zero zero_offsets]
  simp only [View.ld_unit_zero (S := S10000x64) zero_offsets, View.ld_unit_zero (S := S1x64) zero_offsets]
  obtain ⟨e0, e1, e2, e3, e4, e5⟩ := index_maps t
  funext j
  obtain ⟨p, q, rfl⟩ : ∃ (p : Fin 10000) (q : Fin 64), j = ix2 p q := ⟨j 0, j 1, eq_ix2 j⟩
  have hP : win5_2.index t (0 : Fin 2) * 10000 + p.val < 50000 := by have := p.isLt; omega
  have hemb : ((cfg5.win 2).blk t).view.emb (ix2 p q) = ix2 ⟨win5_2.index t (0 : Fin 2) * 10000 + p.val, hP⟩ q := by
    funext a; apply Fin.ext
    match a with
    | ⟨0, _⟩ => show win5_2.index t (0 : Fin 2) * 10000 + 1 * p.val = win5_2.index t (0 : Fin 2) * 10000 + p.val; omega
    | ⟨1, _⟩ => show win5_2.index t (1 : Fin 2) * 64 + 1 * q.val = q.val; omega
  show k5_pay1 (F := Ideal) (iblk5 V c 0 t) (iblk5 V c 1 t) (ix2 p q)
    = Cert.Gcn.bias64 (F := Ideal) (V c main_v72) b (((cfg5.win 2).blk t).view.emb (ix2 p q))
  rw [hemb]
  refine block_entry (iblk5 V c 0 t) (iblk5 V c 1 t) (V c main_v72) b _ p q ?_ ?_
  · show V c main_v72 (((cfg5.win 0).blk t).view.emb (ix2 p q)) = V c main_v72 (ix2 ⟨win5_2.index t (0 : Fin 2) * 10000 + p.val, hP⟩ q)
    refine congrArg _ (funext fun a => Fin.ext ?_)
    match a with
    | ⟨0, _⟩ => show win5_0.index t (0 : Fin 2) * 10000 + 1 * p.val = win5_2.index t (0 : Fin 2) * 10000 + p.val; omega
    | ⟨1, _⟩ => show win5_0.index t (1 : Fin 2) * 64 + 1 * q.val = q.val; omega
  · show V c main_v73 (((cfg5.win 1).blk t).view.emb (ix2 (0 : Fin 1) q)) = b (ix1 q)
    rw [← hb q]
    refine congrArg _ (funext fun a => Fin.ext ?_)
    match a with
    | ⟨0, _⟩ => show win5_1.index t (0 : Fin 2) * 1 + 1 * 0 = 0; omega
    | ⟨1, _⟩ => show win5_1.index t (1 : Fin 2) * 64 + 1 * q.val = q.val; omega

/-- An index of the output array is in point `t`'s block iff each coordinate is in the block's range. -/
theorem mem_block (t : Fin cfg5.N) (i : S50000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v74).slice (win5_2.rect t)).set ↔ _
  rw [View.set_slice_whole, Rect.mem_set_unit]
  exact Iff.rfl

/-- The five blocks tile the output: row `r` is in the block of point `r / 10000`. -/
theorem covered (i : S50000x64.Idx) :
    ∃ t : Fin cfg5.N, (cfg5.win 2).flush t = true ∧ i ∈ ((cfg5.win 2).blk t).view.set := by
  have hi0 : (i 0).val < 50000 := (i 0).isLt
  have hi1 : (i 1).val < 64 := (i 1).isLt
  obtain ⟨t, ht⟩ := index_onto ⟨(i 0).val / 10000, by omega⟩
  have q0 : win5_2.index t (0 : Fin 2) = (i 0).val / 10000 := congrFun ht 0
  have q1 : win5_2.index t (1 : Fin 2) = 0 := congrFun ht 1
  refine ⟨t, flush5_2 t, ?_⟩
  rw [mem_block]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- After the region its output array is the whole-array function of the array and the bias row it found. -/
theorem final (c : Dev nD) (b : S64.Idx → EReal)
    (hb : ∀ q : Fin 64, V c main_v73 (ix2 (0 : Fin 1) q) = b (ix1 q)) :
    (dat5 V c).arrAt 2 cfg5.N = Cert.Gcn.bias64 (F := Ideal) (V c main_v72) b :=
  (dat5 V c).arrAt_eq_of_cover 2 _ (fun t _ => flushed_eq V c t b hb) covered

end Cert.KernelIdeal.Ep5

end
-- ==== Proof.Fold.lean ====
/-
  The contents of the idealized kernel's buffers at the boundaries of its ten segments, read where the network needs
  them. The first stretch of host operations computes the edges' sources and destinations (self-loops appended) and
  the edges' weights; nothing later writes those three buffers, nor the arguments, so every later stretch reads them
  unchanged (`keep*`, `carry*`: a stretch keeps a buffer it does not write, a region one that is none of its arrays).
  Each layer is then three steps: a product region leaves `X · W` of what it finds (`prod_*`), the next stretch
  gathers, weights and adds up the product's rows along the edges (`agg_*`) and lays the bias out as one row
  (`row_*`), and an epilogue region adds the bias row to every row, clamping at zero in the first two layers
  (`layer_*`). Composed, the result buffer at the last boundary holds `Gcn.out` of the arguments (`result`).
-/
import proofs.«124595_j1632087573166_1_alg».proof.Proof.Gen.KernelIdeal.Frame
import proofs.«124595_j1632087573166_1_alg».proof.Proof.Gen.ReferenceIdeal
import proofs.«124595_j1632087573166_1_alg».proof.Proof.Spec
import proofs.«124595_j1632087573166_1_alg».proof.Proof.LibWrittenRefs
import proofs.«124595_j1632087573166_1_alg».proof.Proof.Mm0
import proofs.«124595_j1632087573166_1_alg».proof.Proof.Ep1
import proofs.«124595_j1632087573166_1_alg».proof.Proof.Mm2
import proofs.«124595_j1632087573166_1_alg».proof.Proof.Ep3
import proofs.«124595_j1632087573166_1_alg».proof.Proof.Mm4
import proofs.«124595_j1632087573166_1_alg».proof.Proof.Ep5
import Idealize.ShloMosaic.Lib.StableHlo.Run
import Idealize.ShloMosaic.Lib.Pipeline.Value
import Idealize.ShloMosaic.Lib.ValueIdx

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg) (c : Dev nD)

/-! ## The buffers each stretch of host operations writes -/

/-- The buffers the first stretch writes, in order. -/
def written0 : List (Ref sig .tc) := [main_v0, main_v1, main_v2, main_v3, main_v4, main_v5, main_v6, main_cst, main_v7, main_cst_0, main_v8, main_v9, main_v10, main_v11, main_c, main_v12, main_v13, main_c_1, main_v14, main_v15, main_v16, main_v17, main_v18, main_c_2, main_v19, main_v20, main_c_3, main_v21, main_v22, main_v23, main_v24, main_v25, main_v26]
/-- The buffers the second stretch writes, in order. -/
def written1 : List (Ref sig .tc) := [main_c_4, main_v28, main_v29, main_c_5, main_v30, main_v31, main_v32, main_v33, main_v34, main_v35, main_v36, main_v37, main_cst_6, main_v38, main_v39, main_v40, main_v41]
/-- The buffers the third stretch writes, in order. -/
def written3 : List (Ref sig .tc) := [main_c_7, main_v44, main_v45, main_c_8, main_v46, main_v47, main_v48, main_v49, main_v50, main_v51, main_v52, main_v53, main_cst_9, main_v54, main_v55, main_v56, main_v57]
/-- The buffers the fourth stretch writes, in order. -/
def written5 : List (Ref sig .tc) := [main_c_10, main_v60, main_v61, main_c_11, main_v62, main_v63, main_v64, main_v65, main_v66, main_v67, main_v68, main_v69, main_cst_12, main_v70, main_v71, main_v72, main_v73]

theorem writes0 : (hostOps0 (F := Ideal)).map (fun op => op.writes) = written0.map (fun r => ({Proc.devRef (τ := τ) .tc r} : Finset (DevRef τ sig))) := rfl
theorem writes1 : (hostOps1 (F := Ideal)).map (fun op => op.writes) = written1.map (fun r => ({Proc.devRef (τ := τ) .tc r} : Finset (DevRef τ sig))) := rfl
theorem writes3 : (hostOps3 (F := Ideal)).map (fun op => op.writes) = written3.map (fun r => ({Proc.devRef (τ := τ) .tc r} : Finset (DevRef τ sig))) := rfl
theorem writes5 : (hostOps5 (F := Ideal)).map (fun op => op.writes) = written5.map (fun r => ({Proc.devRef (τ := τ) .tc r} : Finset (DevRef τ sig))) := rfl

/-- A buffer the first stretch does not write holds at region 0's entry what it held at launch. -/
theorem keep0 {r : Ref sig .tc} (hr : r ∉ written0) :
    W1 m ρ c (Proc.devRef .tc r) = m ((c : Thread nD τ).loc r) :=
  after_of_map_writes_eq writes0 (W0 m ρ c) hr
theorem keep1 {r : Ref sig .tc} (hr : r ∉ written1) : W3 m ρ c (Proc.devRef .tc r) = W2 m ρ c (Proc.devRef .tc r) :=
  after_of_map_writes_eq writes1 (W2 m ρ c) hr
theorem keep3 {r : Ref sig .tc} (hr : r ∉ written3) : W6 m ρ c (Proc.devRef .tc r) = W5 m ρ c (Proc.devRef .tc r) :=
  after_of_map_writes_eq writes3 (W5 m ρ c) hr
theorem keep5 {r : Ref sig .tc} (hr : r ∉ written5) : W9 m ρ c (Proc.devRef .tc r) = W8 m ρ c (Proc.devRef .tc r) :=
  after_of_map_writes_eq writes5 (W8 m ρ c) hr

/-! ## The first stretch: the edges' ends and weights -/

theorem src_1 : W1 m ρ c (Proc.devRef .tc main_v5) = Cert.Gcn.src (F := Ideal) (m ((c : Thread nD τ).loc main_arg1)) := by
  show StableHlo.after hostOps0 (W0 m ρ c) (Proc.devRef .tc main_v5) = _
  after_results_simp
  rfl

theorem dst_1 : W1 m ρ c (Proc.devRef .tc main_v6) = Cert.Gcn.dst (F := Ideal) (m ((c : Thread nD τ).loc main_arg1)) := by
  show StableHlo.after hostOps0 (W0 m ρ c) (Proc.devRef .tc main_v6) = _
  after_results_simp
  rfl

theorem norm_1 : W1 m ρ c (Proc.devRef .tc main_v26) = Cert.Gcn.normOf (F := Ideal) (m ((c : Thread nD τ).loc main_arg1)) := by
  show StableHlo.after hostOps0 (W0 m ρ c) (Proc.devRef .tc main_v26) = _
  after_results_simp
  rfl

/-! ## Buffers that nothing writes between two boundaries -/

theorem carry2 {r : Ref sig .tc} (h0 : ∀ w, Pipeline.arrRef spec0 w ≠ r) :
    W2 m ρ c (Proc.devRef .tc r) = W1 m ρ c (Proc.devRef .tc r) := W2_of_ne m ρ c r h0
theorem carry4 {r : Ref sig .tc} (h0 : ∀ w, Pipeline.arrRef spec0 w ≠ r) (n1 : r ∉ written1) (h1 : ∀ w, Pipeline.arrRef spec1 w ≠ r) :
    W4 m ρ c (Proc.devRef .tc r) = W1 m ρ c (Proc.devRef .tc r) :=
  (W4_of_ne m ρ c r h1).trans ((keep1 m ρ c n1).trans (carry2 m ρ c h0))
theorem carry5 {r : Ref sig .tc} (h0 : ∀ w, Pipeline.arrRef spec0 w ≠ r) (n1 : r ∉ written1) (h1 : ∀ w, Pipeline.arrRef spec1 w ≠ r)
    (h2 : ∀ w, Pipeline.arrRef spec2 w ≠ r) : W5 m ρ c (Proc.devRef .tc r) = W1 m ρ c (Proc.devRef .tc r) :=
  (W5_of_ne m ρ c r h2).trans (carry4 m ρ c h0 n1 h1)
theorem carry7 {r : Ref sig .tc} (h0 : ∀ w, Pipeline.arrRef spec0 w ≠ r) (n1 : r ∉ written1) (h1 : ∀ w, Pipeline.arrRef spec1 w ≠ r)
    (h2 : ∀ w, Pipeline.arrRef spec2 w ≠ r) (n3 : r ∉ written3) (h3 : ∀ w, Pipeline.arrRef spec3 w ≠ r) :
    W7 m ρ c (Proc.devRef .tc r) = W1 m ρ c (Proc.devRef .tc r) :=
  (W7_of_ne m ρ c r h3).trans ((keep3 m ρ c n3).trans (carry5 m ρ c h0 n1 h1 h2))
theorem carry8 {r : Ref sig .tc} (h0 : ∀ w, Pipeline.arrRef spec0 w ≠ r) (n1 : r ∉ written1) (h1 : ∀ w, Pipeline.arrRef spec1 w ≠ r)
    (h2 : ∀ w, Pipeline.arrRef spec2 w ≠ r) (n3 : r ∉ written3) (h3 : ∀ w, Pipeline.arrRef spec3 w ≠ r)
    (h4 : ∀ w, Pipeline.arrRef spec4 w ≠ r) : W8 m ρ c (Proc.devRef .tc r) = W1 m ρ c (Proc.devRef .tc r) :=
  (W8_of_ne m ρ c r h4).trans (carry7 m ρ c h0 n1 h1 h2 n3 h3)

/-! ## The first layer -/

/-- The edges' sources, destinations and weights are still what the first stretch computed when region 0 has run. -/
theorem src_2 : W2 m ρ c (Proc.devRef .tc main_v5) = Cert.Gcn.src (F := Ideal) (m ((c : Thread nD τ).loc main_arg1)) :=
  (carry2 m ρ c (r := main_v5) (by decide)).trans (src_1 m ρ c)
theorem dst_2 : W2 m ρ c (Proc.devRef .tc main_v6) = Cert.Gcn.dst (F := Ideal) (m ((c : Thread nD τ).loc main_arg1)) :=
  (carry2 m ρ c (r := main_v6) (by decide)).trans (dst_1 m ρ c)
theorem norm_2 : W2 m ρ c (Proc.devRef .tc main_v26) = Cert.Gcn.normOf (F := Ideal) (m ((c : Thread nD τ).loc main_arg1)) :=
  (carry2 m ρ c (r := main_v26) (by decide)).trans (norm_1 m ρ c)

/-- Region 0 leaves the product of the node features with the first weights. -/
theorem prod_2 : W2 m ρ c (Proc.devRef .tc main_v27) = Cert.Gcn.mm (F := Ideal) (m ((c : Thread nD τ).loc main_arg0)) (m ((c : Thread nD τ).loc main_arg2)) := by
  refine (W2_arr m ρ c 2).trans ((Cert.KernelIdeal.Mm0.final (V1 m ρ) c).trans ?_)
  show Cert.Gcn.mm (F := Ideal) (W1 m ρ c (Proc.devRef .tc main_arg0)) (W1 m ρ c (Proc.devRef .tc main_arg2)) = _
  rw [keep0 m ρ c (r := main_arg0) (by decide), keep0 m ρ c (r := main_arg2) (by decide)]

/-- The stretch after it gathers the product's rows along the edges, weights them and adds them up per destination. -/
theorem agg_3 : W3 m ρ c (Proc.devRef .tc main_v40) = Cert.Gcn.agg (F := Ideal) (m ((c : Thread nD τ).loc main_arg1)) (Cert.Gcn.mm (F := Ideal) (m ((c : Thread nD τ).loc main_arg0)) (m ((c : Thread nD τ).loc main_arg2))) := by
  show StableHlo.after hostOps1 (W2 m ρ c) (Proc.devRef .tc main_v40) = _
  after_results_simp
  rw [src_2 m ρ c, dst_2 m ρ c, norm_2 m ρ c, prod_2 m ρ c]
  rfl

/-- The same stretch lays the bias vector out as one row. -/
theorem row_3 (q : Fin 128) : W3 m ρ c (Proc.devRef .tc main_v41) (ix2 (0 : Fin 1) q) = (m ((c : Thread nD τ).loc main_arg3)) (ix1 q) := by
  have h : W3 m ρ c (Proc.devRef .tc main_v41) = shapeCast S1x128 (W2 m ρ c (Proc.devRef .tc main_arg3)) shapeCasts_S128_S1x128 := by
    show StableHlo.after hostOps1 (W2 m ρ c) (Proc.devRef .tc main_v41) = _
    after_results_simp
    rfl
  rw [h, (carry2 m ρ c (r := main_arg3) (by decide)).trans (keep0 m ρ c (by decide))]
  exact shapeCast_apply _ _ (ix2 (0 : Fin 1) q) (ix1 q) (by rw [Shape.rowMajor_val_one, Shape.rowMajor_val_two]; simp)

/-- Region 1 adds the bias and clamps: the first layer's output. -/
theorem layer_4 : W4 m ρ c (Proc.devRef .tc main_v42) = (Cert.Gcn.layer (F := Ideal) (m ((c : Thread nD τ).loc main_arg1)) (m ((c : Thread nD τ).loc main_arg0)) (m ((c : Thread nD τ).loc main_arg2)) (m ((c : Thread nD τ).loc main_arg3))) := by
  refine (W4_arr m ρ c 2).trans ((Cert.KernelIdeal.Ep1.final (V3 m ρ) c (m ((c : Thread nD τ).loc main_arg3)) (row_3 m ρ c)).trans ?_)
  show Cert.Gcn.relu (F := Ideal) (Cert.Gcn.bias (F := Ideal) (W3 m ρ c (Proc.devRef .tc main_v40)) (m ((c : Thread nD τ).loc main_arg3))) = _
  rw [agg_3 m ρ c]
  rfl

/-! ## The second layer -/

/-- The edges' sources, destinations and weights are still what the first stretch computed when region 2 has run. -/
theorem src_5 : W5 m ρ c (Proc.devRef .tc main_v5) = Cert.Gcn.src (F := Ideal) (m ((c : Thread nD τ).loc main_arg1)) :=
  (carry5 m ρ c (r := main_v5) (by decide) (by decide) (by decide) (by decide)).trans (src_1 m ρ c)
theorem dst_5 : W5 m ρ c (Proc.devRef .tc main_v6) = Cert.Gcn.dst (F := Ideal) (m ((c : Thread nD τ).loc main_arg1)) :=
  (carry5 m ρ c (r := main_v6) (by decide) (by decide) (by decide) (by decide)).trans (dst_1 m ρ c)
theorem norm_5 : W5 m ρ c (Proc.devRef .tc main_v26) = Cert.Gcn.normOf (F := Ideal) (m ((c : Thread nD τ).loc main_arg1)) :=
  (carry5 m ρ c (r := main_v26) (by decide) (by decide) (by decide) (by decide)).trans (norm_1 m ρ c)

/-- Region 2 leaves the product of the first layer's output with the second weights. -/
theorem prod_5 : W5 m ρ c (Proc.devRef .tc main_v43) = Cert.Gcn.mm (F := Ideal) (Cert.Gcn.layer (F := Ideal) (m ((c : Thread nD τ).loc main_arg1)) (m ((c : Thread nD τ).loc main_arg0)) (m ((c : Thread nD τ).loc main_arg2)) (m ((c : Thread nD τ).loc main_arg3))) (m ((c : Thread nD τ).loc main_arg4)) := by
  refine (W5_arr m ρ c 2).trans ((Cert.KernelIdeal.Mm2.final (V4 m ρ) c).trans ?_)
  show Cert.Gcn.mm (F := Ideal) (W4 m ρ c (Proc.devRef .tc main_v42)) (W4 m ρ c (Proc.devRef .tc main_arg4)) = _
  rw [layer_4 m ρ c, (carry4 m ρ c (r := main_arg4) (by decide) (by decide) (by decide)).trans (keep0 m ρ c (by decide))]

/-- The stretch after it gathers the product's rows along the edges, weights them and adds them up per destination. -/
theorem agg_6 : W6 m ρ c (Proc.devRef .tc main_v56) = Cert.Gcn.agg (F := Ideal) (m ((c : Thread nD τ).loc main_arg1)) (Cert.Gcn.mm (F := Ideal) (Cert.Gcn.layer (F := Ideal) (m ((c : Thread nD τ).loc main_arg1)) (m ((c : Thread nD τ).loc main_arg0)) (m ((c : Thread nD τ).loc main_arg2)) (m ((c : Thread nD τ).loc main_arg3))) (m ((c : Thread nD τ).loc main_arg4))) := by
  show StableHlo.after hostOps3 (W5 m ρ c) (Proc.devRef .tc main_v56) = _
  after_results_simp
  rw [src_5 m ρ c, dst_5 m ρ c, norm_5 m ρ c, prod_5 m ρ c]
  rfl

/-- The same stretch lays the bias vector out as one row. -/
theorem row_6 (q : Fin 128) : W6 m ρ c (Proc.devRef .tc main_v57) (ix2 (0 : Fin 1) q) = (m ((c : Thread nD τ).loc main_arg5)) (ix1 q) := by
  have h : W6 m ρ c (Proc.devRef .tc main_v57) = shapeCast S1x128 (W5 m ρ c (Proc.devRef .tc main_arg5)) shapeCasts_S128_S1x128 := by
    show StableHlo.after hostOps3 (W5 m ρ c) (Proc.devRef .tc main_v57) = _
    after_results_simp
    rfl
  rw [h, (carry5 m ρ c (r := main_arg5) (by decide) (by decide) (by decide) (by decide)).trans (keep0 m ρ c (by decide))]
  exact shapeCast_apply _ _ (ix2 (0 : Fin 1) q) (ix1 q) (by rw [Shape.rowMajor_val_one, Shape.rowMajor_val_two]; simp)

/-- Region 3 adds the bias and clamps: the second layer's output. -/
theorem layer_7 : W7 m ρ c (Proc.devRef .tc main_v58) = (Cert.Gcn.layer (F := Ideal) (m ((c : Thread nD τ).loc main_arg1)) (Cert.Gcn.layer (F := Ideal) (m ((c : Thread nD τ).loc main_arg1)) (m ((c : Thread nD τ).loc main_arg0)) (m ((c : Thread nD τ).loc main_arg2)) (m ((c : Thread nD τ).loc main_arg3))) (m ((c : Thread nD τ).loc main_arg4)) (m ((c : Thread nD τ).loc main_arg5))) := by
  refine (W7_arr m ρ c 2).trans ((Cert.KernelIdeal.Ep3.final (V6 m ρ) c (m ((c : Thread nD τ).loc main_arg5)) (row_6 m ρ c)).trans ?_)
  show Cert.Gcn.relu (F := Ideal) (Cert.Gcn.bias (F := Ideal) (W6 m ρ c (Proc.devRef .tc main_v56)) (m ((c : Thread nD τ).loc main_arg5))) = _
  rw [agg_6 m ρ c]
  rfl

/-! ## The last layer -/

/-- The edges' sources, destinations and weights are still what the first stretch computed when region 4 has run. -/
theorem src_8 : W8 m ρ c (Proc.devRef .tc main_v5) = Cert.Gcn.src (F := Ideal) (m ((c : Thread nD τ).loc main_arg1)) :=
  (carry8 m ρ c (r := main_v5) (by decide) (by decide) (by decide) (by decide) (by decide) (by decide) (by decide)).trans (src_1 m ρ c)
theorem dst_8 : W8 m ρ c (Proc.devRef .tc main_v6) = Cert.Gcn.dst (F := Ideal) (m ((c : Thread nD τ).loc main_arg1)) :=
  (carry8 m ρ c (r := main_v6) (by decide) (by decide) (by decide) (by decide) (by decide) (by decide) (by decide)).trans (dst_1 m ρ c)
theorem norm_8 : W8 m ρ c (Proc.devRef .tc main_v26) = Cert.Gcn.normOf (F := Ideal) (m ((c : Thread nD τ).loc main_arg1)) :=
  (carry8 m ρ c (r := main_v26) (by decide) (by decide) (by decide) (by decide) (by decide) (by decide) (by decide)).trans (norm_1 m ρ c)

/-- Region 4 leaves the product of the second layer's output with the last weights. -/
theorem prod_8 : W8 m ρ c (Proc.devRef .tc main_v59) = Cert.Gcn.mm64 (F := Ideal) (Cert.Gcn.layer (F := Ideal) (m ((c : Thread nD τ).loc main_arg1)) (Cert.Gcn.layer (F := Ideal) (m ((c : Thread nD τ).loc main_arg1)) (m ((c : Thread nD τ).loc main_arg0)) (m ((c : Thread nD τ).loc main_arg2)) (m ((c : Thread nD τ).loc main_arg3))) (m ((c : Thread nD τ).loc main_arg4)) (m ((c : Thread nD τ).loc main_arg5))) (m ((c : Thread nD τ).loc main_arg6)) := by
  refine (W8_arr m ρ c 2).trans ((Cert.KernelIdeal.Mm4.final (V7 m ρ) c).trans ?_)
  show Cert.Gcn.mm64 (F := Ideal) (W7 m ρ c (Proc.devRef .tc main_v58)) (W7 m ρ c (Proc.devRef .tc main_arg6)) = _
  rw [layer_7 m ρ c, (carry7 m ρ c (r := main_arg6) (by decide) (by decide) (by decide) (by decide) (by decide) (by decide)).trans (keep0 m ρ c (by decide))]

/-- The stretch after it gathers the product's rows along the edges, weights them and adds them up per destination. -/
theorem agg_9 : W9 m ρ c (Proc.devRef .tc main_v72) = Cert.Gcn.agg64 (F := Ideal) (m ((c : Thread nD τ).loc main_arg1)) (Cert.Gcn.mm64 (F := Ideal) (Cert.Gcn.layer (F := Ideal) (m ((c : Thread nD τ).loc main_arg1)) (Cert.Gcn.layer (F := Ideal) (m ((c : Thread nD τ).loc main_arg1)) (m ((c : Thread nD τ).loc main_arg0)) (m ((c : Thread nD τ).loc main_arg2)) (m ((c : Thread nD τ).loc main_arg3))) (m ((c : Thread nD τ).loc main_arg4)) (m ((c : Thread nD τ).loc main_arg5))) (m ((c : Thread nD τ).loc main_arg6))) := by
  show StableHlo.after hostOps5 (W8 m ρ c) (Proc.devRef .tc main_v72) = _
  after_results_simp
  rw [src_8 m ρ c, dst_8 m ρ c, norm_8 m ρ c, prod_8 m ρ c]
  rfl

/-- The same stretch lays the bias vector out as one row. -/
theorem row_9 (q : Fin 64) : W9 m ρ c (Proc.devRef .tc main_v73) (ix2 (0 : Fin 1) q) = (m ((c : Thread nD τ).loc main_arg7)) (ix1 q) := by
  have h : W9 m ρ c (Proc.devRef .tc main_v73) = shapeCast S1x64 (W8 m ρ c (Proc.devRef .tc main_arg7)) shapeCasts_S64_S1x64 := by
    show StableHlo.after hostOps5 (W8 m ρ c) (Proc.devRef .tc main_v73) = _
    after_results_simp
    rfl
  rw [h, (carry8 m ρ c (r := main_arg7) (by decide) (by decide) (by decide) (by decide) (by decide) (by decide) (by decide)).trans (keep0 m ρ c (by decide))]
  exact shapeCast_apply _ _ (ix2 (0 : Fin 1) q) (ix1 q) (by rw [Shape.rowMajor_val_one, Shape.rowMajor_val_two]; simp)

/-- Region 5 adds the last bias: at the last boundary the result buffer holds the network of the arguments. -/
theorem result : W10 m ρ c (Proc.devRef .tc main_v74)
    = Cert.Gcn.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 2).trans ((Cert.KernelIdeal.Ep5.final (V9 m ρ) c (m ((c : Thread nD τ).loc main_arg7)) (row_9 m ρ c)).trans ?_)
  show Cert.Gcn.bias64 (F := Ideal) (W9 m ρ c (Proc.devRef .tc main_v72)) (m ((c : Thread nD τ).loc main_arg7)) = _
  rw [agg_9 m ρ c]
  rfl

end Cert.KernelIdeal.Fold

end
-- ==== Proof.RefIs.lean ====
/-
  The reference's result, as its run leaves it, is the three-layer graph convolution `Gcn.out` of its arguments:
  the run's composed term is the same host operations in the same order, so the two agree by unfolding the layers.
-/
import proofs.«124595_j1632087573166_1_alg».proof.Proof.Gen.ReferenceIdeal.Run
import proofs.«124595_j1632087573166_1_alg».proof.Proof.Spec

noncomputable section

namespace Cert.Gcn

open Idealize.ShloMosaic Idealize.SL.Sem Cert.ReferenceIdeal

variable {F : FTy → Type} [FloatOps F] [Cert.ReferenceIdeal.Facts₀]

set_option maxRecDepth 16384 in
/-- The reference's result term is the network of the reference's arguments. -/
theorem ref_result (m : (ℓ : Loc nD τ sig) → Buf (Elt F) ℓ) (c : Dev nD) :
    Cert.ReferenceIdeal.Value.res_main_v125 m c
      = out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v125 out layer bias64 bias relu agg64 agg mm64 mm normOf dinv wrap src dst
  rfl

end Cert.Gcn

end
-- ==== Proof.lean ====
/-
  A three-layer graph convolution: the kernel against its reference, on the extended reals.

  Both programs compute, per layer, `h = X · W`, gather the rows of `h` at the edges' sources, scale row `k` by the
  edge weight `deg^(-1/2)(src k) · deg^(-1/2)(dst k)`, add the rows up per destination node, and add the bias (the first two
  layers clamp the sum below at zero). The kernel runs each product as a region of five grid points, each multiplying
  10000 rows by the whole weight array, and each bias step as a region of five points over the same row blocks; the
  gather and the scatter-add stay host operations, the same ones as the reference's, and the kernel computes the edge
  weights once where the reference recomputes them per layer. On the extended reals a block of rows of a product is
  the same rows of the one product, entry by entry the same sum, and a change of float format is the identity, so no
  sum is re-ordered and no finiteness is needed: the two results are one function, `Gcn.out`, of the arguments.

  The kernel's run ends with its result at the last segment boundary's contents (`Named.run_named`), which is
  `Gcn.out` of the arguments (`Fold.result`); the reference's run ends at its composed term, which unfolds to the
  same (`Gcn.ref_result`). The idealization rewrote no operation, so there is nothing to preserve.
-/
import proofs.«124595_j1632087573166_1_alg».proof.Defs
import proofs.«124595_j1632087573166_1_alg».proof.Proof.Gen.Kernel
import proofs.«124595_j1632087573166_1_alg».proof.Proof.Gen.Kernel.Skeleton
import proofs.«124595_j1632087573166_1_alg».proof.Proof.Gen.Kernel.Launch
import proofs.«124595_j1632087573166_1_alg».proof.Proof.Gen.Kernel.Points
import proofs.«124595_j1632087573166_1_alg».proof.Proof.Gen.Kernel.Frame
import proofs.«124595_j1632087573166_1_alg».proof.Proof.Gen.KernelIdeal
import proofs.«124595_j1632087573166_1_alg».proof.Proof.Gen.KernelIdeal.Skeleton
import proofs.«124595_j1632087573166_1_alg».proof.Proof.Gen.KernelIdeal.Launch
import proofs.«124595_j1632087573166_1_alg».proof.Proof.Gen.KernelIdeal.Points
import proofs.«124595_j1632087573166_1_alg».proof.Proof.Gen.KernelIdeal.Frame
import proofs.«124595_j1632087573166_1_alg».proof.Proof.Gen.ReferenceIdeal
import proofs.«124595_j1632087573166_1_alg».proof.Proof.Gen.Pre_finite_inputs
import proofs.«124595_j1632087573166_1_alg».proof.Proof.Gen.ReferenceIdeal.Run
import proofs.«124595_j1632087573166_1_alg».proof.Proof.KRun
import proofs.«124595_j1632087573166_1_alg».proof.Proof.Fold
import proofs.«124595_j1632087573166_1_alg».proof.Proof.RefIs
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the network `Gcn.out` of the arguments. -/
theorem algebraic : Cert.algebraic_KernelIdeal_ReferenceIdeal := by
  intro m ρ m' ρ' _ hagree
  refine ⟨fun c => Cert.Gcn.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Fold.result m ρ c), (h c).2⟩)
      (Cert.KernelIdeal.Named.run_named m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.Gcn.ref_result, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
